-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2x32x2048x2048 : Shape := ⟨4, ![2, 32, 2048, 2048]⟩
abbrev S100 : Shape := ⟨1, ![100]⟩
abbrev S64x4096 : Shape := ⟨2, ![64, 4096]⟩
abbrev S100x64 : Shape := ⟨2, ![100, 64]⟩
abbrev S100x4096 : Shape := ⟨2, ![100, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S2x32x2048x2048 : S_.BroadcastsInDim S2x32x2048x2048 (![] : Fin 0 → Fin S2x32x2048x2048.rank)
  reducesTo_S2x32x2048x2048_S_d0_1_2_3 : S2x32x2048x2048.ReducesTo [0, 1, 2, 3] S_
  bcast_S_S100 : S_.BroadcastsInDim S100 (![] : Fin 0 → Fin S100.rank)
  reducesTo_S100_S_d0 : S100.ReducesTo [0] S_
  bcast_S_S64x4096 : S_.BroadcastsInDim S64x4096 (![] : Fin 0 → Fin S64x4096.rank)
  reducesTo_S64x4096_S_d0_1 : S64x4096.ReducesTo [0, 1] S_
  bcast_S_S100x64 : S_.BroadcastsInDim S100x64 (![] : Fin 0 → Fin S100x64.rank)
  reducesTo_S100x64_S_d0_1 : S100x64.ReducesTo [0, 1] S_
  bcast_S_S100x4096 : S_.BroadcastsInDim S100x4096 (![] : Fin 0 → Fin S100x4096.rank)
  reducesTo_S100x4096_S_d0_1 : S100x4096.ReducesTo [0, 1] S_
  reducesTo_S_S_d : S_.ReducesTo [] S_

variable [Facts]

def fn_part2 {F : FTy → Type} [FloatOps F] (main_arg7 : FVec F S_ .f32) (main_arg8 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S_ .f32 := Host.absf main_arg8
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  main_v41

def fn_part1 {F : FTy → Type} [FloatOps F] (main_arg4 : FVec F S64x4096 .f32) (main_arg5 : FVec F S100x64 .f32) (main_arg6 : FVec F S100x4096 .f32) (main_arg7 : FVec F S_ .f32) (main_arg8 : FVec F S_ .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S100x64 .f32 := Host.absf main_arg5
  let main_cst_8 : FVec F S_ .f32 := constant S_ .f32 0x7F800000#32
  let main_v25 : FVec F S100x64 .f32 := broadcastInDim S100x64 ![] bcast_S_S100x64 main_cst_8
  let main_v26 : IVec S100x64 1 := cmpf .olt main_v24 main_v25
  let main_c_9 : IVec S_ 1 := constantI S_ 1 1#1
  let main_v27 : IVec S_ 1 := (fun x v => Host.reduce IntOp.andi x v reducesTo_S100x64_S_d0_1 h_S_) main_v26 main_c_9
  let main_v28 : IVec S_ 1 := andi main_v23 main_v27
  let main_v29 : FVec F S100x4096 .f32 := Host.absf main_arg6
  let main_cst_10 : FVec F S_ .f32 := constant S_ .f32 0x7F800000#32
  let main_v30 : FVec F S100x4096 .f32 := broadcastInDim S100x4096 ![] bcast_S_S100x4096 main_cst_10
  let main_v31 : IVec S100x4096 1 := cmpf .olt main_v29 main_v30
  let main_c_11 : IVec S_ 1 := constantI S_ 1 1#1
  let main_v32 : IVec S_ 1 := (fun x v => Host.reduce IntOp.andi x v reducesTo_S100x4096_S_d0_1 h_S_) main_v31 main_c_11
  let main_v33 : IVec S_ 1 := andi main_v28 main_v32
  fn_part2 (F := F) main_arg7 main_arg8 main_v33

def fn {F : FTy → Type} [FloatOps F] (main_arg0 : FVec F S2x2048x4096 .f32) (main_arg1 : FVec F S2x2048x4096 .f32) (main_arg2 : FVec F S2x32x2048x2048 .f32) (main_arg3 : FVec F S100 .f32) (main_arg4 : FVec F S64x4096 .f32) (main_arg5 : FVec F S100x64 .f32) (main_arg6 : FVec F S100x4096 .f32) (main_arg7 : FVec F S_ .f32) (main_arg8 : FVec F S_ .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : IVec S_ 1 := andi main_v3 main_v7
  let main_v9 : FVec F S2x32x2048x2048 .f32 := Host.absf main_arg2
  let main_cst_2 : FVec F S_ .f32 := constant S_ .f32 0x7F800000#32
  let main_v10 : FVec F S2x32x2048x2048 .f32 := broadcastInDim S2x32x2048x2048 ![] bcast_S_S2x32x2048x2048 main_cst_2
  let main_v11 : IVec S2x32x2048x2048 1 := cmpf .olt main_v9 main_v10
  let main_c_3 : IVec S_ 1 := constantI S_ 1 1#1
  let main_v12 : IVec S_ 1 := (fun x v => Host.reduce IntOp.andi x v reducesTo_S2x32x2048x2048_S_d0_1_2_3 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_arg7 main_arg8 main_v13 main_v16
-- ==== Kernel.lean ====
abbrev S2x2048x4096 : Shape := ⟨3, ![2, 2048, 4096]⟩
abbrev S2x32x2048x2048 : Shape := ⟨4, ![2, 32, 2048, 2048]⟩
abbrev S100 : Shape := ⟨1, ![100]⟩
abbrev S64x4096 : Shape := ⟨2, ![64, 4096]⟩
abbrev S100x64 : Shape := ⟨2, ![100, 64]⟩
abbrev S100x4096 : Shape := ⟨2, ![100, 4096]⟩
abbrev S_ : Shape := ⟨0, ![]⟩
abbrev S2x2048x1 : Shape := ⟨3, ![2, 2048, 1]⟩
abbrev S1x32x64x2048 : Shape := ⟨4, ![1, 32, 64, 2048]⟩
abbrev S1x64x1 : Shape := ⟨3, ![1, 64, 1]⟩
abbrev S1x64x2048 : Shape := ⟨3, ![1, 64, 2048]⟩
abbrev S1x64 : Shape := ⟨2, ![1, 64]⟩
abbrev S2x2048 : Shape := ⟨2, ![2, 2048]⟩
abbrev S4096x64 : Shape := ⟨2, ![4096, 64]⟩
abbrev S64x100 : Shape := ⟨2, ![64, 100]⟩
abbrev S1x256x4096 : Shape := ⟨3, ![1, 256, 4096]⟩
abbrev S1x256x1 : Shape := ⟨3, ![1, 256, 1]⟩
abbrev S256x4096 : Shape := ⟨2, ![256, 4096]⟩
abbrev S256x64 : Shape := ⟨2, ![256, 64]⟩
abbrev S256x100 : Shape := ⟨2, ![256, 100]⟩
abbrev S1x100 : Shape := ⟨2, ![1, 100]⟩
abbrev S256 : Shape := ⟨1, ![256]⟩
abbrev S256x1 : Shape := ⟨2, ![256, 1]⟩

abbrev nBuf : Space → Nat
  | .hbm => 44
  | .vmem => 16
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x32x2048x2048, .f32⟩
  | .hbm, ⟨3, _⟩ => ⟨S100, .f32⟩
  | .hbm, ⟨4, _⟩ => ⟨S64x4096, .f32⟩
  | .hbm, ⟨5, _⟩ => ⟨S100x64, .f32⟩
  | .hbm, ⟨6, _⟩ => ⟨S100x4096, .f32⟩
  | .hbm, ⟨7, _⟩ => ⟨S_, .f32⟩
  | .hbm, ⟨8, _⟩ => ⟨S_, .f32⟩
  | .hbm, ⟨9, _⟩ => ⟨S2x2048x1, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S_, .f32⟩
  | .hbm, ⟨18, _⟩ => ⟨S2x2048, .f32⟩
  | .hbm, ⟨19, _⟩ => ⟨S2x2048, .f32⟩
  | .hbm, ⟨20, _⟩ => ⟨S_, .f32⟩
  | .hbm, ⟨21, _⟩ => ⟨S2x2048, .f32⟩
  | .hbm, ⟨22, _⟩ => ⟨S2x2048, .f32⟩
  | .hbm, ⟨23, _⟩ => ⟨S_, .f32⟩
  | .hbm, ⟨24, _⟩ => ⟨S2x2048, .f32⟩
  | .hbm, ⟨25, _⟩ => ⟨S2x2048, .i1⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S_, .f32⟩
  | .hbm, ⟨30, _⟩ => ⟨S2x2048, .f32⟩
  | .hbm, ⟨31, _⟩ => ⟨S2x2048, .i1⟩
  | .hbm, ⟨32, _⟩ => ⟨S_, .f32⟩
  | .hbm, ⟨33, _⟩ => ⟨S2x2048, .f32⟩
  | .hbm, ⟨34, _⟩ => ⟨S2x2048, .f32⟩
  | .hbm, ⟨35, _⟩ => ⟨S2x2048, .f32⟩
  | .hbm, ⟨36, _⟩ => ⟨S2x2048x1, .f32⟩
  | .hbm, ⟨37, _⟩ => ⟨S4096x64, .f32⟩
  | .hbm, ⟨38, _⟩ => ⟨S64x100, .f32⟩
  | .hbm, ⟨39, _⟩ => ⟨S_, .f32⟩
  | .hbm, ⟨40, _⟩ => ⟨S100, .f32⟩
  | .hbm, ⟨41, _⟩ => ⟨S100, .f32⟩
  | .hbm, ⟨42, _⟩ => ⟨S100, .f32⟩
  | .hbm, ⟨43, _⟩ => ⟨S2x2048x4096, .f32⟩
  | .local _ .vmem, ⟨0, _⟩ => ⟨S1x32x64x2048, .f32⟩
  | .local _ .vmem, ⟨1, _⟩ => ⟨S1x32x64x2048, .f32⟩
  | .local _ .vmem, ⟨2, _⟩ => ⟨S1x64x1, .f32⟩
  | .local _ .vmem, ⟨3, _⟩ => ⟨S1x64x1, .f32⟩
  | .local _ .vmem, ⟨4, _⟩ => ⟨S1x256x4096, .f32⟩
  | .local _ .vmem, ⟨5, _⟩ => ⟨S1x256x4096, .f32⟩
  | .local _ .vmem, ⟨6, _⟩ => ⟨S1x256x4096, .f32⟩
  | .local _ .vmem, ⟨7, _⟩ => ⟨S1x256x4096, .f32⟩
  | .local _ .vmem, ⟨8, _⟩ => ⟨S1x256x1, .f32⟩
  | .local _ .vmem, ⟨9, _⟩ => ⟨S1x256x1, .f32⟩
  | .local _ .vmem, ⟨10, _⟩ => ⟨S4096x64, .f32⟩
  | .local _ .vmem, ⟨11, _⟩ => ⟨S64x100, .f32⟩
  | .local _ .vmem, ⟨12, _⟩ => ⟨S100x4096, .f32⟩
  | .local _ .vmem, ⟨13, _⟩ => ⟨S100, .f32⟩
  | .local _ .vmem, ⟨14, _⟩ => ⟨S1x256x4096, .f32⟩
  | .local _ .vmem, ⟨15, _⟩ => ⟨S1x256x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S4096x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S100x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x32x64x2048_S1x32x64x2048_0_0_0_0 : ∀ a, (![0, 0, 0, 0] : Fin 4 → Nat) a + S1x32x64x2048.size a ≤ S1x32x64x2048.size a
  h_S1x32x64x2048 : 0 < S1x32x64x2048.numel
  reduces_S1x32x64x2048_S1x64x2048 : S1x32x64x2048.Reduces [1] S1x64x2048
  reduces_S1x64x2048_S1x64 : S1x64x2048.Reduces [2] S1x64
  shapeCasts_S1x64_S1x64x1 : S1x64.ShapeCasts S1x64x1
  inb_S1x64x1_S1x64x1_0_0_0 : ∀ a, (![0, 0, 0] : Fin 3 → Nat) a + S1x64x1.size a ≤ S1x64x1.size a
  h_S1x64x1 : 0 < S1x64x1.numel
  shapeCasts_S2x2048x1_S2x2048 : S2x2048x1.ShapeCasts S2x2048
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  transposes_S64x4096_S4096x64_1_0 : S64x4096.Transposes [1, 0] S4096x64
  transposes_S100x64_S64x100_1_0 : S100x64.Transposes [1, 0] S64x100
  bcast_S_S100 : S_.BroadcastsInDim S100 (![] : Fin 0 → Fin S100.rank)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x100_S64x100_0_0 : ∀ a, (![0, 0] : Fin 2 → Nat) a + S64x100.size a ≤ S64x100.size a
  h_S64x100 : 0 < S64x100.numel
  shapeCasts_S64x100_S64x100 : S64x100.ShapeCasts S64x100
  inb_S100_S100_0 : ∀ a, (![0] : Fin 1 → Nat) a + S100.size a ≤ S100.size a
  h_S100 : 0 < S100.numel
  shapeCasts_S100_S100 : S100.ShapeCasts S100
  shapeCasts_S100_S1x100 : S100.ShapeCasts S1x100
  broadcasts_S1x100_S256x100 : S1x100.Broadcasts S256x100
  reduces_S256x100_S256 : S256x100.Reduces [1] S256
  shapeCasts_S256_S256x1 : S256.ShapeCasts S256x1
  broadcasts_S256x1_S256x100 : S256x1.Broadcasts S256x100
  inb_S100x4096_S100x4096_0_0 : ∀ a, (![0, 0] : Fin 2 → Nat) a + S100x4096.size a ≤ S100x4096.size a
  h_S100x4096 : 0 < S100x4096.numel
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  shapeCasts_S1x256x1_S256x1 : S1x256x1.ShapeCasts S256x1
  broadcasts_S256x1_S256x4096 : S256x1.Broadcasts S256x4096
  shapeCasts_S256x4096_S1x256x4096 : S256x4096.ShapeCasts S1x256x4096
  dot_S256x4096_S4096x64_S256x64_1_0_0_1_n_n_wf : DotDims.WF S256x4096 S4096x64 S256x64 [1] [0] [0] [1] [] []
  dot_S256x64_S64x100_S256x100_1_0_0_1_n_n_wf : DotDims.WF S256x64 S64x100 S256x100 [1] [0] [0] [1] [] []
  dot_S256x100_S100x4096_S256x4096_1_0_0_1_n_n_wf : DotDims.WF S256x100 S100x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x2048.size a ≤ S2x32x2048x2048.size a
  hwx0_0 : ∀ i : grid0.Coords, EltTy.bits .f32 = 32 ∨ (Rect.block (s := S2x32x2048x2048) S1x32x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S2x2048x1.size a
  hwx0_1 : ∀ i : grid0.Coords, EltTy.bits .f32 = 32 ∨ (Rect.block (s := S2x2048x1) S1x64x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S2x2048x4096.size a
  hwx1_0 : ∀ i : grid1.Coords, EltTy.bits .f32 = 32 ∨ (Rect.block (s := S2x2048x4096) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S2x2048x4096.size a
  hwx1_1 : ∀ i : grid1.Coords, EltTy.bits .f32 = 32 ∨ (Rect.block (s := S2x2048x4096) S1x256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S2x2048x1.size a
  hwx1_2 : ∀ i : grid1.Coords, EltTy.bits .f32 = 32 ∨ (Rect.block (s := S2x2048x1) S1x256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S4096x64.size a
  hwx1_3 : ∀ i : grid1.Coords, EltTy.bits .f32 = 32 ∨ (Rect.block (s := S4096x64) S4096x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x100.size a ≤ S64x100.size a
  hwx1_4 : ∀ i : grid1.Coords, EltTy.bits .f32 = 32 ∨ (Rect.block (s := S64x100) S64x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x4096.size a ≤ S100x4096.size a
  hwx1_5 : ∀ i : grid1.Coords, EltTy.bits .f32 = 32 ∨ (Rect.block (s := S100x4096) S100x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S100.size a ≤ S100.size a
  hwx1_6 : ∀ i : grid1.Coords, EltTy.bits .f32 = 32 ∨ (Rect.block (s := S100) S100.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x4096.size a ≤ S2x2048x4096.size a
  hwx1_7 : ∀ i : grid1.Coords, EltTy.bits .f32 = 32 ∨ (Rect.block (s := S2x2048x4096) S1x256x4096.size (cc1_transform_7 i) (hinb1_7 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x100_S256x100_1_0_0_1_n_n : DotDims S256x64 S64x100 S256x100 where
  lhsContracting := [1]
  rhsContracting := [0]
  lhsNonContracting := [0]
  rhsNonContracting := [1]
  lhsBatch := []
  rhsBatch := []
  wf := dot_S256x64_S64x100_S256x100_1_0_0_1_n_n_wf
def dot_S256x100_S100x4096_S256x4096_1_0_0_1_n_n : DotDims S256x100 S100x4096 S256x4096 where
  lhsContracting := [1]
  rhsContracting := [0]
  lhsNonContracting := [0]
  rhsNonContracting := [1]
  lhsBatch := []
  rhsBatch := []
  wf := dot_S256x100_S100x4096_S256x4096_1_0_0_1_n_n_wf

abbrev win0_0 : Pipeline.Window sig grid0 :=
  Pipeline.Window.ofSpec (Memref.whole main_arg2) S1x32x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S4096x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S64x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S100x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x256x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S2x32x2048x2048 : Shape := ⟨4, ![2, 32, 2048, 2048]⟩
abbrev S100 : Shape := ⟨1, ![100]⟩
abbrev S64x4096 : Shape := ⟨2, ![64, 4096]⟩
abbrev S100x64 : Shape := ⟨2, ![100, 64]⟩
abbrev S100x4096 : Shape := ⟨2, ![100, 4096]⟩
abbrev S_ : Shape := ⟨0, ![]⟩
abbrev S2x2048x64 : Shape := ⟨3, ![2, 2048, 64]⟩
abbrev S2x2048x100 : Shape := ⟨3, ![2, 2048, 100]⟩
abbrev S1x1x100 : Shape := ⟨3, ![1, 1, 100]⟩
abbrev S2x2048 : Shape := ⟨2, ![2, 2048]⟩
abbrev S2x2048x1 : Shape := ⟨3, ![2, 2048, 1]⟩
abbrev S2x2048x2048 : Shape := ⟨3, ![2, 2048, 2048]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x32x2048x2048, .f32⟩
  | .hbm, ⟨3, _⟩ => ⟨S100, .f32⟩
  | .hbm, ⟨4, _⟩ => ⟨S64x4096, .f32⟩
  | .hbm, ⟨5, _⟩ => ⟨S100x64, .f32⟩
  | .hbm, ⟨6, _⟩ => ⟨S100x4096, .f32⟩
  | .hbm, ⟨7, _⟩ => ⟨S_, .f32⟩
  | .hbm, ⟨8, _⟩ => ⟨S_, .f32⟩
  | .hbm, ⟨9, _⟩ => ⟨S2x2048x64, .f32⟩
  | .hbm, ⟨10, _⟩ => ⟨S2x2048x100, .f32⟩
  | .hbm, ⟨11, _⟩ => ⟨S_, .f32⟩
  | .hbm, ⟨12, _⟩ => ⟨S2x2048x100, .f32⟩
  | .hbm, ⟨13, _⟩ => ⟨S2x2048x100, .f32⟩
  | .hbm, ⟨14, _⟩ => ⟨S_, .f32⟩
  | .hbm, ⟨15, _⟩ => ⟨S100, .f32⟩
  | .hbm, ⟨16, _⟩ => ⟨S100, .f32⟩
  | .hbm, ⟨17, _⟩ => ⟨S100, .f32⟩
  | .hbm, ⟨18, _⟩ => ⟨S1x1x100, .f32⟩
  | .hbm, ⟨19, _⟩ => ⟨S2x2048x100, .f32⟩
  | .hbm, ⟨20, _⟩ => ⟨S2x2048x100, .f32⟩
  | .hbm, ⟨21, _⟩ => ⟨S_, .f32⟩
  | .hbm, ⟨22, _⟩ => ⟨S2x2048, .f32⟩
  | .hbm, ⟨23, _⟩ => ⟨S_, .f32⟩
  | .hbm, ⟨24, _⟩ => ⟨S2x2048, .f32⟩
  | .hbm, ⟨25, _⟩ => ⟨S2x2048, .f32⟩
  | .hbm, ⟨26, _⟩ => ⟨S2x2048x1, .f32⟩
  | .hbm, ⟨27, _⟩ => ⟨S2x2048x100, .f32⟩
  | .hbm, ⟨28, _⟩ => ⟨S2x2048x100, .f32⟩
  | .hbm, ⟨29, _⟩ => ⟨S2x2048x100, .f32⟩
  | .hbm, ⟨30, _⟩ => ⟨S_, .f32⟩
  | .hbm, ⟨31, _⟩ => ⟨S2x2048, .f32⟩
  | .hbm, ⟨32, _⟩ => ⟨S2x2048x1, .f32⟩
  | .hbm, ⟨33, _⟩ => ⟨S2x2048x100, .f32⟩
  | .hbm, ⟨34, _⟩ => ⟨S2x2048x100, .f32⟩
  | .hbm, ⟨35, _⟩ => ⟨S2x2048x4096, .f32⟩
  | .hbm, ⟨36, _⟩ => ⟨S_, .f32⟩
  | .hbm, ⟨37, _⟩ => ⟨S2x2048x2048, .f32⟩
  | .hbm, ⟨38, _⟩ => ⟨S_, .f32⟩
  | .hbm, ⟨39, _⟩ => ⟨S2x2048x2048, .f32⟩
  | .hbm, ⟨40, _⟩ => ⟨S2x2048x2048, .f32⟩
  | .hbm, ⟨41, _⟩ => ⟨S_, .f32⟩
  | .hbm, ⟨42, _⟩ => ⟨S2x2048x2048, .f32⟩
  | .hbm, ⟨43, _⟩ => ⟨S2x2048x2048, .f32⟩
  | .hbm, ⟨44, _⟩ => ⟨S2x2048x2048, .f32⟩
  | .hbm, ⟨45, _⟩ => ⟨S2x2048x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048, .f32⟩
  | .hbm, ⟨50, _⟩ => ⟨S2x2048, .f32⟩
  | .hbm, ⟨51, _⟩ => ⟨S2x2048, .f32⟩
  | .hbm, ⟨52, _⟩ => ⟨S2x2048, .f32⟩
  | .hbm, ⟨53, _⟩ => ⟨S2x2048, .f32⟩
  | .hbm, ⟨54, _⟩ => ⟨S2x2048, .f32⟩
  | .hbm, ⟨55, _⟩ => ⟨S_, .f32⟩
  | .hbm, ⟨56, _⟩ => ⟨S2x2048, .f32⟩
  | .hbm, ⟨57, _⟩ => ⟨S2x2048, .f32⟩
  | .hbm, ⟨58, _⟩ => ⟨S_, .f32⟩
  | .hbm, ⟨59, _⟩ => ⟨S2x2048, .f32⟩
  | .hbm, ⟨60, _⟩ => ⟨S2x2048, .f32⟩
  | .hbm, ⟨61, _⟩ => ⟨S_, .f32⟩
  | .hbm, ⟨62, _⟩ => ⟨S2x2048, .f32⟩
  | .hbm, ⟨63, _⟩ => ⟨S2x2048, .i1⟩
  | .hbm, ⟨64, _⟩ => ⟨S_, .f32⟩
  | .hbm, ⟨65, _⟩ => ⟨S2x2048, .f32⟩
  | .hbm, ⟨66, _⟩ => ⟨S2x2048, .f32⟩
  | .hbm, ⟨67, _⟩ => ⟨S_, .f32⟩
  | .hbm, ⟨68, _⟩ => ⟨S2x2048, .f32⟩
  | .hbm, ⟨69, _⟩ => ⟨S2x2048, .i1⟩
  | .hbm, ⟨70, _⟩ => ⟨S_, .f32⟩
  | .hbm, ⟨71, _⟩ => ⟨S2x2048, .f32⟩
  | .hbm, ⟨72, _⟩ => ⟨S2x2048, .f32⟩
  | .hbm, ⟨73, _⟩ => ⟨S2x2048, .f32⟩
  | .hbm, ⟨74, _⟩ => ⟨S2x2048x1, .f32⟩
  | .hbm, ⟨75, _⟩ => ⟨S2x2048x4096, .f32⟩
  | .hbm, ⟨76, _⟩ => ⟨S2x2048x4096, .f32⟩
  | .hbm, ⟨77, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  bcast_S_S2x2048x100 : S_.BroadcastsInDim S2x2048x100 (![] : Fin 0 → Fin S2x2048x100.rank)
  bcast_S_S100 : S_.BroadcastsInDim S100 (![] : Fin 0 → Fin S100.rank)
  bcast_S100_S1x1x100_2 : S100.BroadcastsInDim S1x1x100 (![2] : Fin 1 → Fin S1x1x100.rank)
  bcast_S1x1x100_S2x2048x100_0_1_2 : S1x1x100.BroadcastsInDim S2x2048x100 (![0, 1, 2] : Fin 3 → Fin S2x2048x100.rank)
  reducesTo_S2x2048x100_S2x2048_d2 : S2x2048x100.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x100_0_1_2 : S2x2048x1.BroadcastsInDim S2x2048x100 (![0, 1, 2] : Fin 3 → Fin S2x2048x100.rank)
  reducesTo_S2x32x2048x2048_S2x2048x2048_d1 : S2x32x2048x2048.ReducesTo [1] S2x2048x2048
  bcast_S_S2x2048x2048 : S_.BroadcastsInDim S2x2048x2048 (![] : Fin 0 → Fin S2x2048x2048.rank)
  reducesTo_S2x2048x2048_S2x2048_d2 : S2x2048x2048.ReducesTo [2] S2x2048
  bcast_S2x2048x1_S2x2048x4096_0_1_2 : S2x2048x1.BroadcastsInDim S2x2048x4096 (![0, 1, 2] : Fin 3 → Fin S2x2048x4096.rank)
  dot_S2x2048x4096_S64x4096_S2x2048x64_2_1_01_0_n_n_wf : DotDims.WF S2x2048x4096 S64x4096 S2x2048x64 [2] [1] [0, 1] [0] [] []
  dot_S2x2048x64_S100x64_S2x2048x100_2_1_01_0_n_n_wf : DotDims.WF S2x2048x64 S100x64 S2x2048x100 [2] [1] [0, 1] [0] [] []
  dot_S2x2048x100_S100x4096_S2x2048x4096_2_0_01_1_n_n_wf : DotDims.WF S2x2048x100 S100x4096 S2x2048x4096 [2] [0] [0, 1] [1] [] []

variable [Facts₀]

def dot_S2x2048x4096_S64x4096_S2x2048x64_2_1_01_0_n_n : DotDims S2x2048x4096 S64x4096 S2x2048x64 where
  lhsContracting := [2]
  rhsContracting := [1]
  lhsNonContracting := [0, 1]
  rhsNonContracting := [0]
  lhsBatch := []
  rhsBatch := []
  wf := dot_S2x2048x4096_S64x4096_S2x2048x64_2_1_01_0_n_n_wf
def dot_S2x2048x64_S100x64_S2x2048x100_2_1_01_0_n_n : DotDims S2x2048x64 S100x64 S2x2048x100 where
  lhsContracting := [2]
  rhsContracting := [1]
  lhsNonContracting := [0, 1]
  rhsNonContracting := [0]
  lhsBatch := []
  rhsBatch := []
  wf := dot_S2x2048x64_S100x64_S2x2048x100_2_1_01_0_n_n_wf
def dot_S2x2048x100_S100x4096_S2x2048x4096_2_0_01_1_n_n : DotDims S2x2048x100 S100x4096 S2x2048x4096 where
  lhsContracting := [2]
  rhsContracting := [0]
  lhsNonContracting := [0, 1]
  rhsNonContracting := [1]
  lhsBatch := []
  rhsBatch := []
  wf := dot_S2x2048x100_S100x4096_S2x2048x4096_2_0_01_1_n_n_wf

class Facts : Prop extends Facts₀ where

variable [Facts]
-- ==== Proof.Gate.lean ====
/-
  The gate both programs apply to the per-row entropies `e` (one per batch and query position), given the two scalar
  parameters `w` and `b`: the logistic `σ = 1 / (1 + exp (-(w · e + b)))`, vetoed to `0` where `e < 1/2` and capped at the
  f32 nearest 0.8 where `e > 2`. Both programs spell it with the same host operations in the same order on the same f32
  words, so it is carried as ONE function of the entropies and never opened.
-/
import Idealize.ShloMosaic.PureOps.Ideal

noncomputable section

namespace Cert.Spec

open Idealize.ShloMosaic

/-- One entry per (batch, query position). -/
abbrev SRows : Shape := ⟨2, ![2, 2048]⟩
/-- A scalar tensor. -/
abbrev SUnit : Shape := ⟨0, ![]⟩

/-- The gate of every row from the rows' entropies. -/
def gateVec (hb : SUnit.BroadcastsInDim SRows (![] : Fin SUnit.rank → Fin SRows.rank)) (e : FVec Ideal SRows .f32)
    (w b : FVec Ideal SUnit .f32) : FVec Ideal SRows .f32 :=
  let bc (x : FVec Ideal SUnit .f32) : FVec Ideal SRows .f32 := broadcastInDim SRows ![] hb x
  let sg : FVec Ideal SRows .f32 :=
    Host.divf (bc (constant SUnit .f32 0x3F800000#32))
      (addf (bc (constant SUnit .f32 0x3F800000#32)) (Host.exp (Host.negf (addf (mulf (bc w) e) (bc b)))))
  let g1 : FVec Ideal SRows .f32 :=
    select (cmpf .olt e (bc (constant SUnit .f32 0x3F000000#32))) (bc (constant SUnit .f32 0x00000000#32)) sg
  select (cmpf .ogt e (bc (constant SUnit .f32 0x40000000#32))) (minimumf g1 (bc (constant SUnit .f32 0x3F4CCCCD#32))) g1

end Cert.Spec

end
-- ==== Proof.KernelRun.lean ====
/-
  The kernel program's run with its result named, and what its second region finds on entry.

  @main is: the entropy region; 33 host operations in five stretches (the reshape of the region's output to one entropy
  per row, the logistic gate of the entropies with its veto below 1/2 and its cap above 2, the gate laid out as a column,
  the two matrices transposed, the logarithm of the reliabilities plus ε); the fusion region, whose output array is the
  result. The run ends with the result array at what the fusion region's write-backs leave and the nine arguments as
  launched. On entry to the fusion region each buffer it reads is a function of the launch memory and of the entropy
  region's output: an argument no operation writes is as launched; a transposed matrix and the log-reliabilities are the
  last stretch's operations of arguments as launched; the gate column is the five stretches' chain — one function of the
  entropies and the two scalar parameters — applied to the entropy region's output with its unit axis dropped.
-/
import proofs.«176080_j23390391894556_1_alg».proof.Proof.Gen.KernelIdeal.Frame
import proofs.«176080_j23390391894556_1_alg».proof.Proof.Gate
import Idealize.ShloMosaic.Lib.Pipeline.Value
import Idealize.ShloMosaic.Lib.StableHlo.Run
import Idealize.ShloMosaic.Lib.Tactic

set_option maxRecDepth 16384

noncomputable section

namespace Cert.KernelIdeal.KRun

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Tactic Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN, WITH THE RESULT'S VALUE: from any memory with zero counters every weakly fair execution of @main on the
    TensorCores terminates, nothing faulting, and every final state has the nine argument arrays as launched and the
    result array at what the second region's pipeline leaves in its output window from that region's entry contents —
    the segment chain's last thread state read against the final state, the result by the last boundary's contents at
    the output window's array, each argument by the walk back through the boundaries. -/
theorem run_value : θ_run (defs (F := Ideal)) (onTc (τ := τ) (main (F := Ideal))) ⟨m, fun _ => 0, ρ⟩ (fun r => ∀ c : Dev nD,
      r.2.mem ((c.tc : Thread nD τ).loc main_v27) = (dat1 (V6 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v27 (by decide))).trans (W7_arr m ρ c 7),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

/-! ## Region 1's entry contents, buffer by buffer

An argument buffer that no host operation writes and that is no array of region 0 holds at region 1's entry what the
launch memory holds: each of the 33 host operations leaves it (its result buffer is another), and so does region 0. -/

theorem V6_arg0 (c : Dev nD) : V6 m ρ c main_arg0 = m ((c : Thread nD τ).loc main_arg0) := by
  show W6 m ρ c (Proc.devRef .tc main_arg0) = _
  after_results
  exact W1_of_ne m ρ c main_arg0 (by decide)
theorem V6_arg1 (c : Dev nD) : V6 m ρ c main_arg1 = m ((c : Thread nD τ).loc main_arg1) := by
  show W6 m ρ c (Proc.devRef .tc main_arg1) = _
  after_results
  exact W1_of_ne m ρ c main_arg1 (by decide)
theorem V6_arg6 (c : Dev nD) : V6 m ρ c main_arg6 = m ((c : Thread nD τ).loc main_arg6) := by
  show W6 m ρ c (Proc.devRef .tc main_arg6) = _
  after_results
  exact W1_of_ne m ρ c main_arg6 (by decide)
theorem V6_v22 (c : Dev nD) : V6 m ρ c main_v22
    = transpose S4096x64 [1, 0] (m ((c : Thread nD τ).loc main_arg4)) transposes_S64x4096_S4096x64_1_0 := by
  -- the last stretch's transpose of the argument, itself as launched
  show W6 m ρ c (Proc.devRef .tc main_v22) = _
  after_results
  exact congrArg (fun x => transpose S4096x64 [1, 0] x transposes_S64x4096_S4096x64_1_0) (W1_of_ne m ρ c main_arg4 (by decide))
theorem V6_v23 (c : Dev nD) : V6 m ρ c main_v23
    = transpose S64x100 [1, 0] (m ((c : Thread nD τ).loc main_arg5)) transposes_S100x64_S64x100_1_0 := by
  -- the last stretch's transpose of the argument, itself as launched
  show W6 m ρ c (Proc.devRef .tc main_v23) = _
  after_results
  exact congrArg (fun x => transpose S64x100 [1, 0] x transposes_S100x64_S64x100_1_0) (W1_of_ne m ρ c main_arg5 (by decide))
theorem V6_v26 (c : Dev nD) : V6 m ρ c main_v26
    = Host.log (addf (m ((c : Thread nD τ).loc main_arg3)) (broadcastInDim S100 ![] bcast_S_S100 (constant (F := Ideal) S_ .f32 0x2EDBE6FF#32))) := by
  -- the last stretch's log (argument + ε), the argument as launched
  show W6 m ρ c (Proc.devRef .tc main_v26) = _
  after_results
  exact congrArg (fun x => Host.log (addf x (broadcastInDim S100 ![] bcast_S_S100 (constant (F := Ideal) S_ .f32 0x2EDBE6FF#32))))
    (W1_of_ne m ρ c main_arg3 (by decide))

/-! ## The gate's host operations, stretch by stretch, from any contents `V`

What each stretch of host operations leaves at the buffers the gate passes through, as the operations' functions of
the contents `V` the stretch starts from. -/

section Stretch

variable (V : Valuation τ sig (Elt Ideal))

/-- The first stretch reshapes region 0's output (one entropy per row, as a column) to the rows' shape. -/
theorem s1_v1 : StableHlo.after hostOps1 V (Proc.devRef .tc main_v1)
    = shapeCast S2x2048 (V (Proc.devRef .tc main_v0)) shapeCasts_S2x2048x1_S2x2048 := by
  after_results
  all_goals rfl

/-- … and leaves the logistic `1 / (1 + exp (-(w · e + b)))` of the reshaped entropies, -/
theorem s1_v11 : StableHlo.after hostOps1 V (Proc.devRef .tc main_v11)
    = Host.divf (broadcastInDim S2x2048 ![] bcast_S_S2x2048 (constant (F := Ideal) S_ .f32 0x3F800000#32))
        (addf (broadcastInDim S2x2048 ![] bcast_S_S2x2048 (constant (F := Ideal) S_ .f32 0x3F800000#32))
          (Host.exp (Host.negf (addf
            (mulf (broadcastInDim S2x2048 ![] bcast_S_S2x2048 (V (Proc.devRef .tc main_arg7)))
              (shapeCast S2x2048 (V (Proc.devRef .tc main_v0)) shapeCasts_S2x2048x1_S2x2048))
            (broadcastInDim S2x2048 ![] bcast_S_S2x2048 (V (Proc.devRef .tc main_arg8))))))) := by
  after_results
  all_goals rfl

/-- … the comparison `e < 1/2`, -/
theorem s1_v13 : StableHlo.after hostOps1 V (Proc.devRef .tc main_v13)
    = cmpf .olt (shapeCast S2x2048 (V (Proc.devRef .tc main_v0)) shapeCasts_S2x2048x1_S2x2048)
        (broadcastInDim S2x2048 ![] bcast_S_S2x2048 (constant (F := Ideal) S_ .f32 0x3F000000#32)) := by
  after_results
  all_goals rfl

/-- … and the zero vector. -/
theorem s1_v14 : StableHlo.after hostOps1 V (Proc.devRef .tc main_v14)
    = broadcastInDim S2x2048 ![] bcast_S_S2x2048 (constant (F := Ideal) S_ .f32 0x00000000#32) := by
  after_results

/-- The second stretch (one select) vetoes the logistic where `e < 1/2`, and leaves the entropies. -/
theorem s2_v15 : StableHlo.after hostOps1_1 V (Proc.devRef .tc main_v15)
    = select (V (Proc.devRef .tc main_v13)) (V (Proc.devRef .tc main_v14)) (V (Proc.devRef .tc main_v11)) := by
  after_results
  all_goals rfl
theorem s2_v1 : StableHlo.after hostOps1_1 V (Proc.devRef .tc main_v1) = V (Proc.devRef .tc main_v1) := by
  after_results

/-- The third stretch compares `e > 2` and caps the vetoed gate, leaving the vetoed gate itself too. -/
theorem s3_v17 : StableHlo.after hostOps1_2 V (Proc.devRef .tc main_v17)
    = cmpf .ogt (V (Proc.devRef .tc main_v1))
        (broadcastInDim S2x2048 ![] bcast_S_S2x2048 (constant (F := Ideal) S_ .f32 0x40000000#32)) := by
  after_results
theorem s3_v19 : StableHlo.after hostOps1_2 V (Proc.devRef .tc main_v19)
    = minimumf (V (Proc.devRef .tc main_v15))
        (broadcastInDim S2x2048 ![] bcast_S_S2x2048 (constant (F := Ideal) S_ .f32 0x3F4CCCCD#32)) := by
  after_results
theorem s3_v15 : StableHlo.after hostOps1_2 V (Proc.devRef .tc main_v15) = V (Proc.devRef .tc main_v15) := by
  after_results

/-- The fourth stretch (one select) takes the capped gate where `e > 2`. -/
theorem s4_v20 : StableHlo.after hostOps1_3 V (Proc.devRef .tc main_v20)
    = select (V (Proc.devRef .tc main_v17)) (V (Proc.devRef .tc main_v19)) (V (Proc.devRef .tc main_v15)) := by
  after_results
  all_goals rfl

/-- The last stretch lays the gate out as a column. -/
theorem s5_v21 : StableHlo.after hostOps1_4 V (Proc.devRef .tc main_v21)
    = broadcastInDim S2x2048x1 ![0, 1] bcast_S2x2048_S2x2048x1_0_1 (V (Proc.devRef .tc main_v20)) := by
  after_results

end Stretch

/-- The five stretches in order, from any contents `V`: the gate of the reshaped entropies, as a column. Each stretch's
    result is the next one's operand, and the gate's definition is these same operations in this order. -/
theorem gate_chain (V : Valuation τ sig (Elt Ideal)) :
    StableHlo.after hostOps1_4 (StableHlo.after hostOps1_3 (StableHlo.after hostOps1_2 (StableHlo.after hostOps1_1
        (StableHlo.after hostOps1 V)))) (Proc.devRef .tc main_v21)
      = broadcastInDim S2x2048x1 ![0, 1] bcast_S2x2048_S2x2048x1_0_1
          (Cert.Spec.gateVec bcast_S_S2x2048 (shapeCast S2x2048 (V (Proc.devRef .tc main_v0)) shapeCasts_S2x2048x1_S2x2048)
            (V (Proc.devRef .tc main_arg7)) (V (Proc.devRef .tc main_arg8))) := by
  -- after the second stretch: the entropies and the vetoed gate
  have b1 := (s2_v1 (StableHlo.after hostOps1 V)).trans (s1_v1 V)
  have b15 := s2_v15 (StableHlo.after hostOps1 V)
  rw [s1_v13 V, s1_v14 V, s1_v11 V] at b15
  -- after the third: the comparison, the capped gate, the vetoed gate
  have c17 := s3_v17 (StableHlo.after hostOps1_1 (StableHlo.after hostOps1 V))
  rw [b1] at c17
  have c19 := s3_v19 (StableHlo.after hostOps1_1 (StableHlo.after hostOps1 V))
  rw [b15] at c19
  have c15 := (s3_v15 (StableHlo.after hostOps1_1 (StableHlo.after hostOps1 V))).trans b15
  -- the fourth selects, the fifth lays out as a column
  refine (s5_v21 _).trans (congrArg _ ?_)
  refine (s4_v20 _).trans ?_
  rw [c17, c19, c15]
  rfl

/-- Region 1's gate column at its entry: the five stretches run from region 0's exit contents, whose two scalar
    arguments are the launch memory's. -/
theorem V6_v21 (c : Dev nD) : V6 m ρ c main_v21
    = broadcastInDim S2x2048x1 ![0, 1] bcast_S2x2048_S2x2048x1_0_1
        (Cert.Spec.gateVec bcast_S_S2x2048 (shapeCast S2x2048 (V1 m ρ c main_v0) shapeCasts_S2x2048x1_S2x2048)
          (m ((c : Thread nD τ).loc main_arg7)) (m ((c : Thread nD τ).loc main_arg8))) := by
  -- region 0 leaves the two scalar arguments as launched
  have h7 : W1 m ρ c (Proc.devRef .tc main_arg7) = m ((c : Thread nD τ).loc main_arg7) := W1_of_ne m ρ c main_arg7 (by decide)
  have h8 : W1 m ρ c (Proc.devRef .tc main_arg8) = m ((c : Thread nD τ).loc main_arg8) := W1_of_ne m ρ c main_arg8 (by decide)
  have h := gate_chain (W1 m ρ c)
  rw [h7, h8] at h
  exact h

/-- Region 0's output array at its exit: what the pipeline leaves in output window 1. -/
theorem V1_v0 (c : Dev nD) : V1 m ρ c main_v0 = (dat0 (V0 m ρ) c).arrAt 1 cfg0.N :=
  W1_arr m ρ c 1

/-- Region 0's entry contents are the launch memory's. -/
theorem V0_arg2 (c : Dev nD) : V0 m ρ c main_arg2 = m ((c : Thread nD τ).loc main_arg2) := rfl

end Cert.KernelIdeal.KRun

end
-- ==== Proof.Spec.lean ====
/-
  The two row-wise functions both programs compute, over the extended reals.

  ENTROPY OF ONE ROW. For the 32 head-rows `p h ·` (each of 2048 weights) of one query position: the head average
  `a k = (∑ h, p h k) / 32`, and the entropy `-(∑ k, a k · log (a k + ε))`, ε the f32 nearest 1e-10.

  THE FUSED OUTPUT OF ONE ROW. For one hidden row `x` (4096 entries): the query `q d = ∑ k, x k · A k d` (64 entries),
  the scores `s n = (∑ d, q d · B d n) / 8 + ℓ n` against 100 slots, their softmax
  `w n = exp (s n - M) / ∑ k, exp (s k - M)` with `M = max (-∞) (max over n of s n)`, the slot mixture
  `∑ n, w n · C n h`, and the output `y h + g · (that mixture)` for the primary row `y` and the row's gate `g`.
  Float constants stay as their f32 words: both programs spell the same words.
-/
import Idealize.ShloMosaic.PureOps.Ideal
import Idealize.ShloMosaic.PureOps.Ideal.Laws

noncomputable section

namespace Cert.Spec

open Idealize.ShloMosaic

/-- The head average of one row at key position `k`. -/
def headAvg (p : Fin 32 → Fin 2048 → EReal) (k : Fin 2048) : EReal :=
  Ideal.div (∑ h : Fin 32, p h k) (Ideal.ofBits .f32 0x42000000#32)

/-- The entropy of one row of head-averaged attention weights. -/
def rowEnt (p : Fin 32 → Fin 2048 → EReal) : EReal :=
  -(∑ k : Fin 2048, headAvg p k * Ideal.log (headAvg p k + Ideal.ofBits .f32 0x2EDBE6FF#32))

/-- The 64 query entries of one hidden row. -/
def rowQuery (x : Fin 4096 → EReal) (A : Fin 4096 → Fin 64 → EReal) (d : Fin 64) : EReal :=
  ∑ k : Fin 4096, x k * A k d

/-- The 100 slot scores of one row: scaled dot products plus the slots' log-reliabilities. -/
def rowScore (x : Fin 4096 → EReal) (A : Fin 4096 → Fin 64 → EReal) (B : Fin 64 → Fin 100 → EReal)
    (l : Fin 100 → EReal) (n : Fin 100) : EReal :=
  Ideal.div (∑ d : Fin 64, rowQuery x A d * B d n) (Ideal.ofBits .f32 0x41000000#32) + l n

/-- The maximum a softmax subtracts: the largest score, joined once more with -∞. -/
def rowMax (s : Fin 100 → EReal) : EReal :=
  max (Ideal.ofBits .f32 0xFF800000#32) ((Finset.univ : Finset (Fin 100)).fold max (Ideal.ofBits .f32 0xFF800000#32) s)

/-- The softmax weights of one row of scores. -/
def rowSoftmax (s : Fin 100 → EReal) (n : Fin 100) : EReal :=
  Ideal.div (Ideal.exp (s n - rowMax s)) (∑ k : Fin 100, Ideal.exp (s k - rowMax s))

/-- One row of the fused output. -/
def rowOut (x y : Fin 4096 → EReal) (g : EReal) (A : Fin 4096 → Fin 64 → EReal) (B : Fin 64 → Fin 100 → EReal)
    (C : Fin 100 → Fin 4096 → EReal) (l : Fin 100 → EReal) (h : Fin 4096) : EReal :=
  y h + g * ∑ n : Fin 100, rowSoftmax (rowScore x A B l) n * C n h

end Cert.Spec

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KernelRows.lean ====
/-
  The kernel bodies' arithmetic, one row at a time. Each stored entry of a body is a function of ONE row of its loaded
  blocks: row `r` of the entropy body's output is the entropy of the 32 head-rows at `r`; entry `(r, h)` of the fusion
  body's output is the fused output of hidden row `r`, primary row `r` and gate `r` against the three small matrices.
  At the extended reals a change of float format is the identity, a matrix product into a zero accumulator is the sum
  of products, a lane sum is the sum, a lane maximum the fold of `max`, and `0 - x` is `-x`.
-/
import proofs.«176080_j23390391894556_1_alg».proof.Proof.Gen.KernelIdeal.Skeleton
import proofs.«176080_j23390391894556_1_alg».proof.Proof.Spec
import proofs.«176080_j23390391894556_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KRows

open Cert.KernelIdeal Cert.KernelIdeal.Gen Idealize.ShloMosaic Idealize.ShloMosaic.ValueIdx

/-! ## The entropy body -/

/-- Row `r` of the entropy body's stored block is the entropy of the 32 head-rows of the loaded block at `r`. -/
theorem pay_entropy (v0 : Vec Ideal S1x32x64x2048 .f32) (r : Fin 64) :
    k0_pay1 (F := Ideal) v0 (ix3 (0 : Fin 1) r (0 : Fin 1))
      = Cert.Spec.rowEnt (fun h k => v0 (ix4 (0 : Fin 1) h r k)) := by
  unfold k0_pay1
  dsimp only
  refine (shapeCast_apply _ _ (ix3 (0 : Fin 1) r (0 : Fin 1)) (ix2 (0 : Fin 1) r) (by
    rw [Shape.rowMajor_val_three, Shape.rowMajor_val_two]
    show 0 * 64 + r.val = (0 * 64 + r.val) * 1 + 0
    omega)).trans ?_
  unfold Cert.Spec.rowEnt
  rw [← zero_sub (∑ k : Fin 2048, _), ← Ideal.ofBits_zero_f32]
  refine (subf_apply _ _ _).trans ?_
  refine congrArg (Ideal.ofBits .f32 0x00000000#32 - ·) ?_
  refine (Ideal.multiReduction_add_single _ _ _ _ _ _).trans ?_
  refine Finset.sum_congr rfl fun k _ => ?_
  have hl : reduces_S1x64x2048_S1x64.lift (ix2 (0 : Fin 1) r) k = ix3 (0 : Fin 1) r k :=
    funext fun a => Fin.ext (by match a with | ⟨0, _⟩ => rfl | ⟨1, _⟩ => rfl | ⟨2, _⟩ => rfl)
  refine (congrArg _ hl).trans ?_
  have hM : multiReduction (F := Ideal) .add [1] S1x64x2048 v0 0x00000000#32 reduces_S1x32x64x2048_S1x64x2048 (.inl rfl) rfl (ix3 (0 : Fin 1) r k)
      = ∑ h : Fin 32, v0 (ix4 (0 : Fin 1) h r k) :=
    (Ideal.multiReduction_add_single _ _ _ _ _ _).trans (Finset.sum_congr rfl fun h _ => congrArg v0
      (funext fun a => Fin.ext (by match a with | ⟨0, _⟩ => rfl | ⟨1, _⟩ => rfl | ⟨2, _⟩ => rfl | ⟨3, _⟩ => rfl)))
  simp only [Cert.Spec.headAvg]
  rw [← hM]
  rfl

/-! ## The fusion body -/

/-- The product of an `[256, 4096]` block with a `[4096, 64]` matrix into a zero accumulator, at `(r, c)`: the sum over the contracted
    axis of the products of row `r` and column `c`. -/
theorem dotQuery_apply (l : FVec Ideal S256x4096 .bf16) (rr : FVec Ideal S4096x64 .bf16) (r : Fin 256) (c : Fin 64) :
    matmul dot_S256x4096_S4096x64_S256x64_1_0_0_1_n_n none l rr (constant S256x64 .f32 0x00000000#32) (ix2 r c)
      = ∑ k : Fin 4096, l (ix2 r k) * rr (ix2 k c) := by
  refine (Ideal.matmul_constant_zero_apply dot_S256x4096_S4096x64_S256x64_1_0_0_1_n_n none l rr (ix2 r c)).trans ?_
  rw [← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 r c) ((contrEquiv1 dot_S256x4096_S4096x64_S256x64_1_0_0_1_n_n 4096 rfl rfl).symm k) = ix2 r k :=
    funext fun a => Fin.ext (by
      match a with
      | ⟨0, _⟩ => rfl
      | ⟨1, _⟩ => exact (dot_S256x4096_S4096x64_S256x64_1_0_0_1_n_n.lhsIdx_val_of_single rfl _ _).trans hk)
  have er : dot_S256x4096_S4096x64_S256x64_1_0_0_1_n_n.rhsIdx (ix2 r c) ((contrEquiv1 dot_S256x4096_S4096x64_S256x64_1_0_0_1_n_n 4096 rfl rfl).symm k) = ix2 k c :=
    funext fun a => Fin.ext (by
      match a with
      | ⟨0, _⟩ => exact (dot_S256x4096_S4096x64_S256x64_1_0_0_1_n_n.rhsIdx_val_of_single rfl _ _).trans hk
      | ⟨1, _⟩ => rfl)
  rw [el, er]

/-- The product of an `[256, 64]` block with a `[64, 100]` matrix into a zero accumulator, at `(r, c)`: the sum over the contracted
    axis of the products of row `r` and column `c`. -/
theorem dotScore_apply (l : FVec Ideal S256x64 .bf16) (rr : FVec Ideal S64x100 .bf16) (r : Fin 256) (c : Fin 100) :
    matmul dot_S256x64_S64x100_S256x100_1_0_0_1_n_n none l rr (constant S256x100 .f32 0x00000000#32) (ix2 r c)
      = ∑ k : Fin 64, l (ix2 r k) * rr (ix2 k c) := by
  refine (Ideal.matmul_constant_zero_apply dot_S256x64_S64x100_S256x100_1_0_0_1_n_n none l rr (ix2 r c)).trans ?_
  rw [← Equiv.sum_comp (contrEquiv1 dot_S256x64_S64x100_S256x100_1_0_0_1_n_n 64 rfl rfl).symm]
  refine Finset.sum_congr rfl fun k _ => ?_
  have hk := contrEquiv1_symm_val dot_S256x64_S64x100_S256x100_1_0_0_1_n_n 64 rfl rfl k
  have el : dot_S256x64_S64x100_S256x100_1_0_0_1_n_n.lhsIdx (ix2 r c) ((contrEquiv1 dot_S256x64_S64x100_S256x100_1_0_0_1_n_n 64 rfl rfl).symm k) = ix2 r k :=
    funext fun a => Fin.ext (by
      match a with
      | ⟨0, _⟩ => rfl
      | ⟨1, _⟩ => exact (dot_S256x64_S64x100_S256x100_1_0_0_1_n_n.lhsIdx_val_of_single rfl _ _).trans hk)
  have er : dot_S256x64_S64x100_S256x100_1_0_0_1_n_n.rhsIdx (ix2 r c) ((contrEquiv1 dot_S256x64_S64x100_S256x100_1_0_0_1_n_n 64 rfl rfl).symm k) = ix2 k c :=
    funext fun a => Fin.ext (by
      match a with
      | ⟨0, _⟩ => exact (dot_S256x64_S64x100_S256x100_1_0_0_1_n_n.rhsIdx_val_of_single rfl _ _).trans hk
      | ⟨1, _⟩ => rfl)
  rw [el, er]

/-- The product of an `[256, 100]` block with a `[100, 4096]` matrix into a zero accumulator, at `(r, c)`: the sum over the contracted
    axis of the products of row `r` and column `c`. -/
theorem dotMix_apply (l : FVec Ideal S256x100 .bf16) (rr : FVec Ideal S100x4096 .bf16) (r : Fin 256) (c : Fin 4096) :
    matmul dot_S256x100_S100x4096_S256x4096_1_0_0_1_n_n none l rr (constant S256x4096 .f32 0x00000000#32) (ix2 r c)
      = ∑ k : Fin 100, l (ix2 r k) * rr (ix2 k c) := by
  refine (Ideal.matmul_constant_zero_apply dot_S256x100_S100x4096_S256x4096_1_0_0_1_n_n none l rr (ix2 r c)).trans ?_
  rw [← Equiv.sum_comp (contrEquiv1 dot_S256x100_S100x4096_S256x4096_1_0_0_1_n_n 100 rfl rfl).symm]
  refine Finset.sum_congr rfl fun k _ => ?_
  have hk := contrEquiv1_symm_val dot_S256x100_S100x4096_S256x4096_1_0_0_1_n_n 100 rfl rfl k
  have el : dot_S256x100_S100x4096_S256x4096_1_0_0_1_n_n.lhsIdx (ix2 r c) ((contrEquiv1 dot_S256x100_S100x4096_S256x4096_1_0_0_1_n_n 100 rfl rfl).symm k) = ix2 r k :=
    funext fun a => Fin.ext (by
      match a with
      | ⟨0, _⟩ => rfl
      | ⟨1, _⟩ => exact (dot_S256x100_S100x4096_S256x4096_1_0_0_1_n_n.lhsIdx_val_of_single rfl _ _).trans hk)
  have er : dot_S256x100_S100x4096_S256x4096_1_0_0_1_n_n.rhsIdx (ix2 r c) ((contrEquiv1 dot_S256x100_S100x4096_S256x4096_1_0_0_1_n_n 100 rfl rfl).symm k) = ix2 k c :=
    funext fun a => Fin.ext (by
      match a with
      | ⟨0, _⟩ => exact (dot_S256x100_S100x4096_S256x4096_1_0_0_1_n_n.rhsIdx_val_of_single rfl _ _).trans hk
      | ⟨1, _⟩ => rfl)
  rw [el, er]

/-- The query block: the hidden block times the projection matrix. -/
def qBlk (v0 : Vec Ideal S1x256x4096 .f32) (v2 : Vec Ideal S4096x64 .f32) : FVec Ideal S256x64 .f32 :=
  matmul dot_S256x4096_S4096x64_S256x64_1_0_0_1_n_n none
    (truncf .bf16 (shapeCast S256x4096 v0 shapeCasts_S1x256x4096_S256x4096 : FVec Ideal S256x4096 .f32) bitsLt_bf16_f32)
    (truncf .bf16 (shapeCast S4096x64 v2 shapeCasts_S4096x64_S4096x64 : FVec Ideal S4096x64 .f32) bitsLt_bf16_f32)
    (constant S256x64 .f32 0x00000000#32)

/-- The score block: queries against the slot keys, over 8, plus the slots' log-reliabilities along every row. -/
def sBlk (q : FVec Ideal S256x64 .f32) (v7 : Vec Ideal S64x100 .f32) (v14 : Vec Ideal S100 .f32) : FVec Ideal S256x100 .f32 :=
  addf (divf (matmul dot_S256x64_S64x100_S256x100_1_0_0_1_n_n none (truncf .bf16 q bitsLt_bf16_f32)
        (truncf .bf16 (shapeCast S64x100 v7 shapeCasts_S64x100_S64x100 : FVec Ideal S64x100 .f32) bitsLt_bf16_f32) (constant S256x100 .f32 0x00000000#32))
      (broadcast S256x100 (Scalar.ofBits .f32 0x41000000#32)))
    (broadcastTo S256x100 (shapeCast S1x100 (shapeCast S100 v14 shapeCasts_S100_S100 : FVec Ideal S100 .f32) shapeCasts_S100_S1x100) broadcasts_S1x100_S256x100)

/-- The rows' maxima, joined once more with -∞. -/
def mBlk (s : FVec Ideal S256x100 .f32) : FVec Ideal S256 .f32 :=
  maximumf (broadcast S256 (Scalar.ofBits .f32 0xFF800000#32))
    (multiReduction .maximumf [1] S256 s 0xFF800000#32 reduces_S256x100_S256 (.inl rfl) rfl)

/-- The exponentials of the scores less their row's maximum. -/
def eBlk (s : FVec Ideal S256x100 .f32) : FVec Ideal S256x100 .f32 :=
  exp (subf s (broadcastTo S256x100 (shapeCast S256x1 (mBlk s) shapeCasts_S256_S256x1) broadcasts_S256x1_S256x100))

/-- Each entry over its row's sum. -/
def wBlk (e : FVec Ideal S256x100 .f32) : FVec Ideal S256x100 .f32 :=
  divf e (broadcastTo S256x100 (shapeCast S256x1
    (multiReduction .add [1] S256 e 0x00000000#32 reduces_S256x100_S256 (.inl rfl) rfl) shapeCasts_S256_S256x1) broadcasts_S256x1_S256x100)

/-- The slot mixture: weights times the slot values. -/
def auxBlk (w : FVec Ideal S256x100 .f32) (v30 : Vec Ideal S100x4096 .f32) : FVec Ideal S256x4096 .f32 :=
  matmul dot_S256x100_S100x4096_S256x4096_1_0_0_1_n_n none (truncf .bf16 w bitsLt_bf16_f32)
    (truncf .bf16 (v30 : FVec Ideal S100x4096 .f32) bitsLt_bf16_f32) (constant S256x4096 .f32 0x00000000#32)

/-- The body's mixture payload is the composition of those six steps. -/
theorem k1_pay2_eq (v0 : Vec Ideal S1x256x4096 .f32) (v2 : Vec Ideal S4096x64 .f32) (v7 : Vec Ideal S64x100 .f32)
    (v14 : Vec Ideal S100 .f32) (v30 : Vec Ideal S100x4096 .f32) :
    k1_pay2 (F := Ideal) v0 v2 v7 v14 v30 = auxBlk (wBlk (eBlk (sBlk (qBlk v0 v2) v7 v14))) v30 := rfl

theorem qBlk_apply (v0 : Vec Ideal S1x256x4096 .f32) (v2 : Vec Ideal S4096x64 .f32) (r : Fin 256) (d : Fin 64) :
    qBlk v0 v2 (ix2 r d) = Cert.Spec.rowQuery (fun k => v0 (ix3 (0 : Fin 1) r k)) (fun k d => v2 (ix2 k d)) d := by
  unfold qBlk Cert.Spec.rowQuery
  refine (dotQuery_apply _ _ r d).trans ?_
  refine Finset.sum_congr rfl fun k _ => ?_
  refine congrArg₂ (· * ·) ?_ ?_
  · exact shapeCast_1ab_ab_apply v0 _ r k
  · exact congrFun (shapeCast_self v2 _) (ix2 k d)

theorem sBlk_apply (q : FVec Ideal S256x64 .f32) (v7 : Vec Ideal S64x100 .f32) (v14 : Vec Ideal S100 .f32) (r : Fin 256) (n : Fin 100) :
    sBlk q v7 v14 (ix2 r n)
      = Ideal.div (∑ d : Fin 64, q (ix2 r d) * v7 (ix2 d n)) (Ideal.ofBits .f32 0x41000000#32) + v14 (ix1 n) := by
  unfold sBlk
  refine (addf_apply _ _ _).trans ?_
  refine congrArg₂ (· + ·) ?_ ?_
  · refine (divf_apply _ _ _).trans ?_
    refine congrArg₂ Ideal.div ?_ rfl
    refine (dotScore_apply _ _ r n).trans ?_
    refine Finset.sum_congr rfl fun d _ => ?_
    exact congrArg (q (ix2 r d) * ·) (congrFun (shapeCast_self v7 _) (ix2 d n))
  · refine (broadcastTo_1b_ab_apply _ _ r n).trans ?_
    refine (shapeCast_a_1a_apply _ _ 0 n).trans ?_
    exact congrFun (shapeCast_self v14 _) (ix1 n)

theorem mBlk_apply (s : FVec Ideal S256x100 .f32) (r : Fin 256) :
    mBlk s (ix1 r) = Cert.Spec.rowMax (fun n => s (ix2 r n)) := by
  unfold mBlk Cert.Spec.rowMax
  refine (maximumf_apply _ _ _).trans ?_
  refine congrArg₂ max rfl ?_
  refine (Ideal.multiReduction_maximumf_single _ _ _ _ _ _).trans ?_
  show (Finset.univ : Finset (Fin 100)).fold max (Ideal.ofBits .f32 0xFF800000#32) (fun k => s (reduces_S256x100_S256.lift (ix1 r) k)) = _
  refine congrArg (fun f => (Finset.univ : Finset (Fin 100)).fold max (Ideal.ofBits .f32 0xFF800000#32) f) (funext fun k => congrArg s ?_)
  exact funext fun a => Fin.ext (by match a with | ⟨0, _⟩ => rfl | ⟨1, _⟩ => rfl)

theorem eBlk_apply (s : FVec Ideal S256x100 .f32) (r : Fin 256) (n : Fin 100) :
    eBlk s (ix2 r n) = Ideal.exp (s (ix2 r n) - Cert.Spec.rowMax (fun n => s (ix2 r n))) := by
  unfold eBlk
  show Ideal.exp (s (ix2 r n) - broadcastTo S256x100 (shapeCast S256x1 (mBlk s) shapeCasts_S256_S256x1) broadcasts_S256x1_S256x100 (ix2 r n)) = _
  exact congrArg (fun z => Ideal.exp (s (ix2 r n) - z)) ((broadcastTo_column_apply _ _ _ r n).trans (mBlk_apply s r))

theorem wBlk_apply (e : FVec Ideal S256x100 .f32) (r : Fin 256) (n : Fin 100) :
    wBlk e (ix2 r n) = Ideal.div (e (ix2 r n)) (∑ k : Fin 100, e (ix2 r k)) := by
  unfold wBlk
  refine (divf_apply _ _ _).trans ?_
  refine congrArg (Ideal.div (e (ix2 r n))) ?_
  refine (broadcastTo_column_apply _ _ _ r n).trans ?_
  refine (Ideal.multiReduction_add_single _ _ _ _ _ _).trans ?_
  exact Finset.sum_congr rfl fun k _ => congrArg e (funext fun a => Fin.ext (by match a with | ⟨0, _⟩ => rfl | ⟨1, _⟩ => rfl))

theorem auxBlk_apply (w : FVec Ideal S256x100 .f32) (v30 : Vec Ideal S100x4096 .f32) (r : Fin 256) (h : Fin 4096) :
    auxBlk w v30 (ix2 r h) = ∑ n : Fin 100, w (ix2 r n) * v30 (ix2 n h) :=
  dotMix_apply _ _ r h

/-- The stored entry `(r, h)`: the primary entry plus the row's gate times the mixture's entry. -/
theorem pay1_apply (v33 : FVec Ideal S256x4096 .f32) (v36 : FVec Ideal S256x1 .f32) (v37 : Vec Ideal S1x256x4096 .f32)
    (r : Fin 256) (h : Fin 4096) :
    k1_pay1 (F := Ideal) v33 v36 v37 (ix3 (0 : Fin 1) r h)
      = v37 (ix3 (0 : Fin 1) r h) + v36 (ix2 r (0 : Fin 1)) * v33 (ix2 r h) := by
  unfold k1_pay1
  refine (shapeCast_ab_1ab_apply _ _ 0 r h).trans ?_
  refine (addf_apply _ _ _).trans ?_
  refine congrArg₂ (· + ·) (shapeCast_1ab_ab_apply v37 _ r h) ?_
  refine (mulf_apply _ _ _).trans ?_
  exact congrArg (· * v33 (ix2 r h)) (broadcastTo_a1_ab_apply v36 _ r h)

/-- The gate column handed to the store: the loaded gate block's entry of row `r`. -/
theorem pay3_apply (v34 : Vec Ideal S1x256x1 .f32) (r : Fin 256) :
    k1_pay3 (F := Ideal) v34 (ix2 r (0 : Fin 1)) = v34 (ix3 (0 : Fin 1) r (0 : Fin 1)) := by
  unfold k1_pay3
  refine (shapeCast_1ab_ab_apply _ _ r 0).trans ?_
  exact congrFun (shapeCast_self v34 _) _

/-- Entry `(r, h)` of the fusion body's stored block is the fused output of row `r` of its loaded blocks. -/
theorem pay_out (v0 : Vec Ideal S1x256x4096 .f32) (v2 : Vec Ideal S4096x64 .f32) (v7 : Vec Ideal S64x100 .f32)
    (v14 : Vec Ideal S100 .f32) (v30 : Vec Ideal S100x4096 .f32) (v34 : Vec Ideal S1x256x1 .f32)
    (v37 : Vec Ideal S1x256x4096 .f32) (r : Fin 256) (h : Fin 4096) :
    k1_pay1 (F := Ideal) (k1_pay2 v0 v2 v7 v14 v30) (k1_pay3 v34) v37 (ix3 (0 : Fin 1) r h)
      = Cert.Spec.rowOut (fun k => v0 (ix3 (0 : Fin 1) r k)) (fun k => v37 (ix3 (0 : Fin 1) r k))
          (v34 (ix3 (0 : Fin 1) r (0 : Fin 1))) (fun k d => v2 (ix2 k d)) (fun d n => v7 (ix2 d n))
          (fun n h => v30 (ix2 n h)) (fun n => v14 (ix1 n)) h := by
  have hs : ∀ n : Fin 100, sBlk (qBlk v0 v2) v7 v14 (ix2 r n)
      = Cert.Spec.rowScore (fun k => v0 (ix3 (0 : Fin 1) r k)) (fun k d => v2 (ix2 k d)) (fun d n => v7 (ix2 d n)) (fun n => v14 (ix1 n)) n := fun n => by
    rw [sBlk_apply]
    unfold Cert.Spec.rowScore
    simp only [qBlk_apply]
  have hsf : (fun n : Fin 100 => sBlk (qBlk v0 v2) v7 v14 (ix2 r n))
      = Cert.Spec.rowScore (fun k => v0 (ix3 (0 : Fin 1) r k)) (fun k d => v2 (ix2 k d)) (fun d n => v7 (ix2 d n)) (fun n => v14 (ix1 n)) := funext hs
  rw [pay1_apply, pay3_apply, k1_pay2_eq, auxBlk_apply]
  unfold Cert.Spec.rowOut
  refine congrArg (fun z => v37 (ix3 (0 : Fin 1) r h) + v34 (ix3 (0 : Fin 1) r (0 : Fin 1)) * z)
    (Finset.sum_congr rfl fun n _ => congrArg (· * v30 (ix2 n h)) ?_)
  rw [wBlk_apply]
  unfold Cert.Spec.rowSoftmax
  simp only [eBlk_apply, hsf, hs]

end Cert.KernelIdeal.KRows

end
-- ==== Proof.Blocks0.lean ====
/-
  The entropy region, block by block. The grid has 2 × 32 points; at point (b, i) the body loads the weights of batch b,
  all 32 heads, query rows 64 i … 64 i + 63, all 2048 keys, and writes back the 64 entropies of those rows. Row r of a
  point's block is query row 64 i + r, so what a point writes back is its block of the array of all rows' entropies;
  the 64 blocks cover that array, hence after the last point the output array IS the array of all rows' entropies.
-/
import proofs.«176080_j23390391894556_1_alg».proof.Proof.Gen.KernelIdeal.Frame
import proofs.«176080_j23390391894556_1_alg».proof.Proof.KernelRows
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The entropies of all rows from the whole attention-weight array: entry `(b, s, 0)` is the entropy of the 32 head-rows
    `A (b, ·, s, ·)`. -/
def entArr (A : S2x32x2048x2048.Idx → Elt Ideal .f32) : S2x2048x1.Idx → Elt Ideal .f32 := fun i =>
  Cert.Spec.rowEnt (fun h k => A (ix4 (⟨(i 0).val, (i 0).isLt⟩ : Fin 2) h (⟨(i 1).val, (i 1).isLt⟩ : Fin 2048) k))

/-! ## The index maps, decided over the grid -/

/-- The zero offsets of a rank-3 and of a rank-4 block, as constant functions. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At every grid point the weights' block sits at the output block's batch and row-block indices, whole on the head
    and key axes; the output's block indices stay in their ranges. -/
theorem idx_facts : ∀ t : Fin cfg0.N, win0_0.index t (0 : Fin 4) = win0_1.index t (0 : Fin 3)
    ∧ win0_0.index t (1 : Fin 4) = 0
    ∧ win0_0.index t (2 : Fin 4) = win0_1.index t (1 : Fin 3)
    ∧ win0_0.index t (3 : Fin 4) = 0
    ∧ win0_1.index t (2 : Fin 3) = 0
    ∧ win0_1.index t (0 : Fin 3) ≤ 1
    ∧ win0_1.index t (1 : Fin 3) ≤ 31 :=
  (by decide +kernel : ∀ t : Fin grid0.N, _)

/-- Every output block is some grid point's. -/
theorem idx_onto : ∀ (q0 : Fin 2) (q1 : Fin 32), ∃ t : Fin cfg0.N, win0_1.index t = ![q0.val, q1.val, 0] :=
  (by decide +kernel : ∀ (q0 : Fin 2) (q1 : Fin 32), ∃ t : Fin grid0.N, win0_1.index t = ![q0.val, q1.val, 0])

/-! ## What a grid point writes back -/

/-- Grid point `t` writes back block `t` of the rows' entropies of the region-entry weights. -/
theorem flushed_eq (c : Dev nD) (t : Fin cfg0.N) :
    (dat0 V c).flushed 1 t = ((cfg0.win 1).blk t).view.read (Elt Ideal) (entArr (V c main_arg2)) := by
  show (cfg0.win 1).cut (grid0.coords t) ((dat0 V c).after 1 t) = _
  rw [after0_1]
  unfold out0_1
  rw [View.canon_unit_zero hz3]
  simp only [View.ld_unit_zero (S := S1x32x64x2048) hz4]
  obtain ⟨e0, e1, e2, e3, e4, e5, e6⟩ := idx_facts t
  funext y
  obtain ⟨u, r, w, rfl⟩ : ∃ (u : Fin 1) (r : Fin 64) (w : Fin 1), y = ix3 u r w := ⟨y 0, y 1, y 2, eq_ix3 y⟩
  obtain rfl : u = 0 := Subsingleton.elim _ _
  obtain rfl : w = 0 := Subsingleton.elim _ _
  refine (KRows.pay_entropy (iblk0 V c 0 t) r).trans ?_
  show Cert.Spec.rowEnt (fun h k => iblk0 V c 0 t (ix4 (0 : Fin 1) h r k))
    = entArr (V c main_arg2) (((cfg0.win 1).blk t).view.emb (ix3 (0 : Fin 1) r (0 : Fin 1)))
  unfold entArr
  refine congrArg Cert.Spec.rowEnt (funext fun h => funext fun k => ?_)
  show V c main_arg2 (((cfg0.win 0).blk t).view.emb (ix4 (0 : Fin 1) h r k)) = V c main_arg2 _
  refine congrArg (V c main_arg2) ?_
  funext a; apply Fin.ext
  match a with
  | ⟨0, _⟩ => show win0_0.index t (0 : Fin 4) * 1 + 1 * 0 = win0_1.index t (0 : Fin 3) * 1 + 1 * 0; omega
  | ⟨1, _⟩ => show win0_0.index t (1 : Fin 4) * 32 + 1 * h.val = h.val; omega
  | ⟨2, _⟩ => show win0_0.index t (2 : Fin 4) * 64 + 1 * r.val = win0_1.index t (1 : Fin 3) * 64 + 1 * r.val; omega
  | ⟨3, _⟩ => show win0_0.index t (3 : Fin 4) * 2048 + 1 * k.val = k.val; omega

/-! ## The blocks cover the output array -/

/-- An index of the output array is in point `t`'s block iff each coordinate is in the block's range on its axis. -/
theorem mem_blk (t : Fin cfg0.N) (i : S2x2048x1.Idx) :
    i ∈ ((cfg0.win 1).blk t).view.set ↔ ∀ a : Fin 3, win0_1.index t a * S1x64x1.size a ≤ (i a).val
      ∧ (i a).val < win0_1.index t a * S1x64x1.size a + S1x64x1.size a := by
  show i ∈ ((View.whole main_v0).slice (win0_1.rect t)).set ↔ _
  rw [View.set_slice_whole, Rect.mem_set_unit]
  exact Iff.rfl

/-- Every index `(b, s, 0)` of the output array is in the block of the point with block indices `(b, s / 64, 0)`,
    which is written back. -/
theorem cover (i : S2x2048x1.Idx) :
    ∃ t : Fin cfg0.N, (cfg0.win 1).flush t = true ∧ i ∈ ((cfg0.win 1).blk t).view.set := by
  have hi0 : (i 0).val < 2 := (i 0).isLt
  have hi1 : (i 1).val < 2048 := (i 1).isLt
  have hi2 : (i 2).val < 1 := (i 2).isLt
  obtain ⟨t, ht⟩ := idx_onto ⟨(i 0).val, by omega⟩ ⟨(i 1).val / 64, by omega⟩
  have q0 : win0_1.index t (0 : Fin 3) = (i 0).val := congrFun ht 0
  have q1 : win0_1.index t (1 : Fin 3) = (i 1).val / 64 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 1 ≤ (i 2).val ∧ (i 2).val < win0_1.index t (2 : Fin 3) * 1 + 1; omega

/-! ## The output array after the region -/

/-- After the entropy region the output array holds the entropy of every row of the region-entry weights. -/
theorem final0 (c : Dev nD) : (dat0 V c).arrAt 1 cfg0.N = entArr (V c main_arg2) := by
  exact (dat0 V c).arrAt_eq_of_cover 1 (entArr (V c main_arg2)) (fun t _ => flushed_eq V c t) cover

end Cert.KernelIdeal.Blocks0

end
-- ==== Proof.Blocks1.lean ====
/-
  The fusion region, from blocks to the whole array. Its grid is (2, 8): point (b, j) stages rows 256 j … 256 j + 255 of
  batch b of the hidden states, of the primary output and of the gate column, and the three small matrices and the
  log-reliabilities whole; it writes back the same 256 rows of the result. Every stored entry is the fused output of
  its own row (KernelRows), the 16 written blocks tile the result, so the result array is, entry by entry, the fused
  output of that entry's row of the arrays as the region finds them.
-/
import proofs.«176080_j23390391894556_1_alg».proof.Proof.Gen.KernelIdeal.Frame
import proofs.«176080_j23390391894556_1_alg».proof.Proof.KernelRows
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The fused output of every row from the whole arrays: entry `(b, s, h)` is the fused output at `h` of hidden row
    `(b, s)`, primary row `(b, s)` and gate `(b, s, 0)` against the three matrices and the log-reliabilities. -/
def outArr (A0 A1 : S2x2048x4096.Idx → Elt Ideal .f32) (A2 : S2x2048x1.Idx → Elt Ideal .f32)
    (A3 : S4096x64.Idx → Elt Ideal .f32) (A4 : S64x100.Idx → Elt Ideal .f32) (A5 : S100x4096.Idx → Elt Ideal .f32)
    (A6 : S100.Idx → Elt Ideal .f32) : S2x2048x4096.Idx → Elt Ideal .f32 := fun i =>
  Cert.Spec.rowOut
    (fun k => A0 (ix3 (⟨(i 0).val, (i 0).isLt⟩ : Fin 2) (⟨(i 1).val, (i 1).isLt⟩ : Fin 2048) k))
    (fun k => A1 (ix3 (⟨(i 0).val, (i 0).isLt⟩ : Fin 2) (⟨(i 1).val, (i 1).isLt⟩ : Fin 2048) k))
    (A2 (ix3 (⟨(i 0).val, (i 0).isLt⟩ : Fin 2) (⟨(i 1).val, (i 1).isLt⟩ : Fin 2048) (0 : Fin 1)))
    (fun k d => A3 (ix2 k d)) (fun d n => A4 (ix2 d n)) (fun n h => A5 (ix2 n h)) (fun n => A6 (ix1 n))
    (⟨(i 2).val, (i 2).isLt⟩ : Fin 4096)

/-- The same at an index whose coordinates are named. -/
theorem outArr_at (A0 A1 : S2x2048x4096.Idx → Elt Ideal .f32) (A2 : S2x2048x1.Idx → Elt Ideal .f32)
    (A3 : S4096x64.Idx → Elt Ideal .f32) (A4 : S64x100.Idx → Elt Ideal .f32) (A5 : S100x4096.Idx → Elt Ideal .f32)
    (A6 : S100.Idx → Elt Ideal .f32) (i : S2x2048x4096.Idx) (b : Fin 2) (s : Fin 2048) (h : Fin 4096)
    (h0 : (i 0).val = b.val) (h1 : (i 1).val = s.val) (h2 : (i 2).val = h.val) :
    outArr A0 A1 A2 A3 A4 A5 A6 i
      = Cert.Spec.rowOut (fun k => A0 (ix3 b s k)) (fun k => A1 (ix3 b s k)) (A2 (ix3 b s (0 : Fin 1)))
          (fun k d => A3 (ix2 k d)) (fun d n => A4 (ix2 d n)) (fun n h => A5 (ix2 n h)) (fun n => A6 (ix1 n)) h := by
  unfold outArr
  have e0 : (⟨(i 0).val, (i 0).isLt⟩ : Fin 2) = b := Fin.ext h0
  have e1 : (⟨(i 1).val, (i 1).isLt⟩ : Fin 2048) = s := Fin.ext h1
  have e2 : (⟨(i 2).val, (i 2).isLt⟩ : Fin 4096) = h := Fin.ext h2
  rw [e0, e1, e2]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-blocked inputs move with the output block; the four small operands
    stay at block 0; the output's block index is (batch, row block, 0). -/
theorem idx_facts : ∀ t : Fin cfg1.N,
    win1_0.index t (0 : Fin 3) = win1_7.index t (0 : Fin 3) ∧ win1_0.index t (1 : Fin 3) = win1_7.index t (1 : Fin 3)
    ∧ win1_0.index t (2 : Fin 3) = 0
    ∧ win1_1.index t (0 : Fin 3) = win1_7.index t (0 : Fin 3) ∧ win1_1.index t (1 : Fin 3) = win1_7.index t (1 : Fin 3)
    ∧ win1_1.index t (2 : Fin 3) = 0
    ∧ win1_2.index t (0 : Fin 3) = win1_7.index t (0 : Fin 3) ∧ win1_2.index t (1 : Fin 3) = win1_7.index t (1 : Fin 3)
    ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (2 : Fin 3) = 0 ∧ win1_7.index t (0 : Fin 3) ≤ 1 ∧ win1_7.index t (1 : Fin 3) ≤ 7 :=
  (by decide +kernel : ∀ t : Fin grid1.N, _)

/-- Every (batch, row block) is some point's output block. -/
theorem idx_onto : ∀ (q0 : Fin 2) (q1 : Fin 8), ∃ t : Fin cfg1.N, win1_7.index t = ![q0.val, q1.val, 0] :=
  (by decide +kernel : ∀ (q0 : Fin 2) (q1 : Fin 8), ∃ t : Fin grid1.N, win1_7.index t = ![q0.val, q1.val, 0])

/-- What point `t` writes back is block `t` of the fused output of the arrays as the region finds them. -/
theorem flushed_eq (c : Dev nD) (t : Fin cfg1.N) :
    (dat1 V c).flushed 7 t = ((cfg1.win 7).blk t).view.read (Elt Ideal) (outArr (V c main_arg0) (V c main_arg1) (V c main_v21) (V c main_v22) (V c main_v23) (V c main_arg6) (V c main_v26)) := by
  show (cfg1.win 7).cut (grid1.coords t) ((dat1 V c).after 7 t) = _
  rw [after1_7]
  unfold out1_7
  rw [View.canon_unit_zero hz3]
  simp only [View.ld_unit_zero (S := S1x256x4096) hz3, View.ld_unit_zero (S := S4096x64) hz2,
    View.ld_unit_zero (S := S64x100) hz2, View.ld_unit_zero (S := S100) hz1, View.ld_unit_zero (S := S100x4096) hz2,
    View.ld_unit_zero (S := S1x256x1) hz3]
  obtain ⟨e00, e01, e02, e10, e11, e12, e20, e21, e22, e30, e31, e40, e41, e50, e51, e60, e72, b0, b1⟩ := idx_facts t
  funext y
  obtain ⟨u, r, h, rfl⟩ : ∃ (u : Fin 1) (r : Fin 256) (h : Fin 4096), y = ix3 u r h := ⟨y 0, y 1, y 2, eq_ix3 y⟩
  have hu : u = 0 := Subsingleton.elim _ _
  subst hu
  refine (KRows.pay_out (iblk1 V c 0 t) (iblk1 V c 3 t) (iblk1 V c 4 t) (iblk1 V c 6 t) (iblk1 V c 5 t) (iblk1 V c 2 t)
    (iblk1 V c 1 t) r h).trans ?_
  have hr : r.val < 256 := r.isLt
  refine Eq.trans ?_ (outArr_at _ _ _ _ _ _ _ (((cfg1.win 7).blk t).view.emb (ix3 (0 : Fin 1) r h))
    (⟨win1_7.index t (0 : Fin 3), by omega⟩ : Fin 2) (⟨win1_7.index t (1 : Fin 3) * 256 + r.val, by omega⟩ : Fin 2048) h
    (by show win1_7.index t (0 : Fin 3) * 1 + 1 * 0 = win1_7.index t (0 : Fin 3); omega)
    (by show win1_7.index t (1 : Fin 3) * 256 + 1 * r.val = win1_7.index t (1 : Fin 3) * 256 + r.val; omega)
    (by show win1_7.index t (2 : Fin 3) * 4096 + 1 * h.val = h.val; omega)).symm
  have h0 : (fun k : Fin 4096 => iblk1 V c 0 t (ix3 (0 : Fin 1) r k)) = fun k => V c main_arg0 (ix3 (⟨win1_7.index t (0 : Fin 3), by omega⟩ : Fin 2) (⟨win1_7.index t (1 : Fin 3) * 256 + r.val, by omega⟩ : Fin 2048) k) :=
    funext fun k => by
      show V c main_arg0 (((cfg1.win 0).blk t).view.emb (ix3 (0 : Fin 1) r k)) = _
      refine congrArg (V c main_arg0) (funext fun a => Fin.ext ?_)
      match a with
      | ⟨0, _⟩ => show win1_0.index t (0 : Fin 3) * 1 + 1 * 0 = win1_7.index t (0 : Fin 3); omega
      | ⟨1, _⟩ => show win1_0.index t (1 : Fin 3) * 256 + 1 * r.val = win1_7.index t (1 : Fin 3) * 256 + r.val; omega
      | ⟨2, _⟩ => show win1_0.index t (2 : Fin 3) * 4096 + 1 * k.val = k.val; omega
  have h1 : (fun k : Fin 4096 => iblk1 V c 1 t (ix3 (0 : Fin 1) r k)) = fun k => V c main_arg1 (ix3 (⟨win1_7.index t (0 : Fin 3), by omega⟩ : Fin 2) (⟨win1_7.index t (1 : Fin 3) * 256 + r.val, by omega⟩ : Fin 2048) k) :=
    funext fun k => by
      show V c main_arg1 (((cfg1.win 1).blk t).view.emb (ix3 (0 : Fin 1) r k)) = _
      refine congrArg (V c main_arg1) (funext fun a => Fin.ext ?_)
      match a with
      | ⟨0, _⟩ => show win1_1.index t (0 : Fin 3) * 1 + 1 * 0 = win1_7.index t (0 : Fin 3); omega
      | ⟨1, _⟩ => show win1_1.index t (1 : Fin 3) * 256 + 1 * r.val = win1_7.index t (1 : Fin 3) * 256 + r.val; omega
      | ⟨2, _⟩ => show win1_1.index t (2 : Fin 3) * 4096 + 1 * k.val = k.val; omega
  have h2 : iblk1 V c 2 t (ix3 (0 : Fin 1) r (0 : Fin 1)) = V c main_v21 (ix3 (⟨win1_7.index t (0 : Fin 3), by omega⟩ : Fin 2) (⟨win1_7.index t (1 : Fin 3) * 256 + r.val, by omega⟩ : Fin 2048) (0 : Fin 1)) := by
    show V c main_v21 (((cfg1.win 2).blk t).view.emb (ix3 (0 : Fin 1) r (0 : Fin 1))) = _
    refine congrArg (V c main_v21) (funext fun a => Fin.ext ?_)
    match a with
    | ⟨0, _⟩ => show win1_2.index t (0 : Fin 3) * 1 + 1 * 0 = win1_7.index t (0 : Fin 3); omega
    | ⟨1, _⟩ => show win1_2.index t (1 : Fin 3) * 256 + 1 * r.val = win1_7.index t (1 : Fin 3) * 256 + r.val; omega
    | ⟨2, _⟩ => show win1_2.index t (2 : Fin 3) * 1 + 1 * 0 = 0; omega
  have h3 : (fun (k : Fin 4096) (d : Fin 64) => iblk1 V c 3 t (ix2 k d)) = fun k d => V c main_v22 (ix2 k d) :=
    funext fun k => funext fun d => by
      show V c main_v22 (((cfg1.win 3).blk t).view.emb (ix2 k d)) = _
      refine congrArg (V c main_v22) (funext fun a => Fin.ext ?_)
      match a with
      | ⟨0, _⟩ => show win1_3.index t (0 : Fin 2) * 4096 + 1 * k.val = k.val; omega
      | ⟨1, _⟩ => show win1_3.index t (1 : Fin 2) * 64 + 1 * d.val = d.val; omega
  have h4 : (fun (d : Fin 64) (n : Fin 100) => iblk1 V c 4 t (ix2 d n)) = fun d n => V c main_v23 (ix2 d n) :=
    funext fun d => funext fun n => by
      show V c main_v23 (((cfg1.win 4).blk t).view.emb (ix2 d n)) = _
      refine congrArg (V c main_v23) (funext fun a => Fin.ext ?_)
      match a with
      | ⟨0, _⟩ => show win1_4.index t (0 : Fin 2) * 64 + 1 * d.val = d.val; omega
      | ⟨1, _⟩ => show win1_4.index t (1 : Fin 2) * 100 + 1 * n.val = n.val; omega
  have h5 : (fun (n : Fin 100) (h : Fin 4096) => iblk1 V c 5 t (ix2 n h)) = fun n h => V c main_arg6 (ix2 n h) :=
    funext fun n => funext fun h => by
      show V c main_arg6 (((cfg1.win 5).blk t).view.emb (ix2 n h)) = _
      refine congrArg (V c main_arg6) (funext fun a => Fin.ext ?_)
      match a with
      | ⟨0, _⟩ => show win1_5.index t (0 : Fin 2) * 100 + 1 * n.val = n.val; omega
      | ⟨1, _⟩ => show win1_5.index t (1 : Fin 2) * 4096 + 1 * h.val = h.val; omega
  have h6 : (fun n : Fin 100 => iblk1 V c 6 t (ix1 n)) = fun n => V c main_v26 (ix1 n) :=
    funext fun n => by
      show V c main_v26 (((cfg1.win 6).blk t).view.emb (ix1 n)) = _
      refine congrArg (V c main_v26) (funext fun a => Fin.ext ?_)
      match a with
      | ⟨0, _⟩ => show win1_6.index t (0 : Fin 1) * 100 + 1 * n.val = n.val; omega
  rw [h0, h1, h2, h3, h4, h5, h6]

/-- An index of the result is in point `t`'s block iff each coordinate is in the block's range on its axis. -/
theorem mem_blk (t : Fin cfg1.N) (i : S2x2048x4096.Idx) :
    i ∈ ((cfg1.win 7).blk t).view.set ↔ ∀ a : Fin 3, win1_7.index t a * S1x256x4096.size a ≤ (i a).val
      ∧ (i a).val < win1_7.index t a * S1x256x4096.size a + S1x256x4096.size a := by
  show i ∈ ((View.whole main_v27).slice (win1_7.rect t)).set ↔ _
  rw [View.set_slice_whole, Rect.mem_set_unit]
  exact Iff.rfl

/-- The 16 written blocks cover the result: row `s` of batch `b` lies in the block of point (b, s / 256). -/
theorem cover (i : S2x2048x4096.Idx) :
    ∃ t : Fin cfg1.N, (cfg1.win 7).flush t = true ∧ i ∈ ((cfg1.win 7).blk t).view.set := by
  have hi0 : (i 0).val < 2 := (i 0).isLt
  have hi1 : (i 1).val < 2048 := (i 1).isLt
  have hi2 : (i 2).val < 4096 := (i 2).isLt
  obtain ⟨t, ht⟩ := idx_onto ⟨(i 0).val, hi0⟩ ⟨(i 1).val / 256, by omega⟩
  have q0 : win1_7.index t (0 : Fin 3) = (i 0).val := congrFun ht 0
  have q1 : win1_7.index t (1 : Fin 3) = (i 1).val / 256 := congrFun ht 1
  have q2 : win1_7.index t (2 : Fin 3) = 0 := congrFun ht 2
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 256 ≤ (i 1).val ∧ (i 1).val < win1_7.index t (1 : Fin 3) * 256 + 256; omega
  | ⟨2, _⟩ => show win1_7.index t (2 : Fin 3) * 4096 ≤ (i 2).val ∧ (i 2).val < win1_7.index t (2 : Fin 3) * 4096 + 4096; omega

/-- After the fusion region the result array holds the fused output of every row of the arrays as the region finds them. -/
theorem final1 (c : Dev nD) : (dat1 V c).arrAt 7 cfg1.N = outArr (V c main_arg0) (V c main_arg1) (V c main_v21) (V c main_v22) (V c main_v23) (V c main_arg6) (V c main_v26) :=
  (dat1 V c).arrAt_eq_of_cover 7 (outArr (V c main_arg0) (V c main_arg1) (V c main_v21) (V c main_v22) (V c main_v23) (V c main_arg6) (V c main_v26)) (fun t _ => flushed_eq V c t) (cover)

end Cert.KernelIdeal.Blocks1

end
-- ==== Proof.RefRows.lean ====
/-
  The reference program read row by row, over the extended reals.

  Each stage of the reference is an array indexed by (batch, query position, …). Read at one index, stage by stage, it
  is a function of ONE row of the inputs: the entropy at (b, s) is the entropy of the 32 × 2048 slab of attention weights
  of that row; the output at (b, s, h) is entry h of the fused output of hidden row (b, s) — query, scores, softmax, slot
  mixture, gated residual. The zero words a sum starts from vanish (0 + S = S); every broadcast reads its source at the
  same row; the index maps of the contractions and sums are the coordinate-wise ones.
-/
import proofs.«176080_j23390391894556_1_alg».proof.Proof.Gen.ReferenceIdeal.Read
import proofs.«176080_j23390391894556_1_alg».proof.Proof.Spec
import proofs.«176080_j23390391894556_1_alg».proof.Proof.Gate
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefRows

open Cert.ReferenceIdeal Cert.ReferenceIdeal.Gen Cert.ReferenceIdeal.Read Idealize.ShloMosaic Idealize.ShloMosaic.ValueIdx

/-- Two indices of a rank-3 shape with the same three coordinates are equal (likewise below for the other ranks). -/
local macro "idx3" : tactic =>
  `(tactic| (funext a; apply Fin.ext; (match a with | ⟨0, _⟩ => rfl | ⟨1, _⟩ => rfl | ⟨2, _⟩ => rfl)))
local macro "idx4" : tactic =>
  `(tactic| (funext a; apply Fin.ext; (match a with | ⟨0, _⟩ => rfl | ⟨1, _⟩ => rfl | ⟨2, _⟩ => rfl | ⟨3, _⟩ => rfl)))
local macro "idx2" : tactic =>
  `(tactic| (funext a; apply Fin.ext; (match a with | ⟨0, _⟩ => rfl | ⟨1, _⟩ => rfl)))
local macro "idx1" : tactic =>
  `(tactic| (funext a; apply Fin.ext; (match a with | ⟨0, _⟩ => rfl)))

/-! ## The entropy of one row -/

/-- The reference's head average at (b, s, k) is the head average of the row's 32 × 2048 slab. -/
theorem headAvg_eq (x2 : (⟨S2x32x2048x2048, .f32⟩ : BufTy).Contents (Elt Ideal)) (b : Fin 2) (s k : Fin 2048) :
    val_main_v24 (F := Ideal) x2 (ix3 b s k) = Cert.Spec.headAvg (fun h k => x2 (ix4 b h s k)) k := by
  rw [val_main_v24_apply, val_main_v22_apply, val_main_v23_apply, val_main_cst_4_apply, val_main_cst_5_apply]
  simp only [Ideal.hostDivf_def, Ideal.ofBits_def, Ideal.ofBits_zero_f32, zero_add]
  unfold Cert.Spec.headAvg
  refine congrArg (Ideal.div · _) (Finset.sum_congr rfl fun h _ => congrArg x2 ?_)
  idx4

/-- The reference's entropy (b, s) is the entropy of the row's head-averaged attention weights. -/
theorem ref_entropy (x2 : (⟨S2x32x2048x2048, .f32⟩ : BufTy).Contents (Elt Ideal)) (b : Fin 2) (s : Fin 2048) :
    val_main_v30 (F := Ideal) x2 (ix2 b s) = Cert.Spec.rowEnt (fun h k => x2 (ix4 b h s k)) := by
  rw [val_main_v30_apply, val_main_v29_apply, val_main_cst_7_apply]
  simp only [Ideal.hostNegf_def, Ideal.negf_def, Ideal.ofBits_def, Ideal.ofBits_zero_f32, zero_add]
  unfold Cert.Spec.rowEnt
  refine congrArg Neg.neg (Finset.sum_congr rfl fun k _ => ?_)
  have hi : idx_main_v29 (ix2 b s) k = ix3 b s k := by idx3
  rw [hi, val_main_v28_apply, val_main_v27_apply, val_main_v26_apply, val_main_v25_apply, val_main_cst_6_apply,
    headAvg_eq]
  rfl

/-! ## The gate -/

/-- The reference's gate is the gate function of the reference's entropies: the same operations in the same order on
    the same words. -/
theorem ref_gate (x2 : (⟨S2x32x2048x2048, .f32⟩ : BufTy).Contents (Elt Ideal)) (x7 x8 : (⟨S_, .f32⟩ : BufTy).Contents (Elt Ideal)) :
    val_main_v49 (F := Ideal) x2 x7 x8 = Cert.Spec.gateVec bcast_S_S2x2048 (val_main_v30 (F := Ideal) x2) x7 x8 := by
  unfold val_main_v49 val_main_v48 val_main_v46 val_main_v44 val_main_v42 val_main_v40 val_main_v38 val_main_v36
    val_main_v35 val_main_v34 val_main_v32
  generalize val_main_v30 (F := Ideal) x2 = e
  rfl

/-! ## The fused output of one row -/

/-- The reference's query entry (b, s, d) is the row's query entry d. -/
theorem query_eq (x0 : (⟨S2x2048x4096, .f32⟩ : BufTy).Contents (Elt Ideal)) (x4 : (⟨S64x4096, .f32⟩ : BufTy).Contents (Elt Ideal)) (b : Fin 2) (s : Fin 2048) (d : Fin 64) :
    val_main_v0 (F := Ideal) x0 x4 (ix3 b s d)
      = Cert.Spec.rowQuery (fun k => x0 (ix3 b s k)) (fun k d => x4 (ix2 d k)) d := by
  rw [val_main_v0_apply]
  unfold Cert.Spec.rowQuery
  refine Finset.sum_congr rfl fun k _ => ?_
  have hl : lidx_main_v0 (ix3 b s d) k = ix3 b s k := by idx3
  have hr : ridx_main_v0 (ix3 b s d) k = ix2 d k := by idx2
  rw [hl, hr]

/-- The reference's score (b, s, n) is the row's score against slot n. -/
theorem score_eq (x0 : (⟨S2x2048x4096, .f32⟩ : BufTy).Contents (Elt Ideal)) (x3 : (⟨S100, .f32⟩ : BufTy).Contents (Elt Ideal)) (x4 : (⟨S64x4096, .f32⟩ : BufTy).Contents (Elt Ideal)) (x5 : (⟨S100x64, .f32⟩ : BufTy).Contents (Elt Ideal)) (b : Fin 2) (s : Fin 2048) (n : Fin 100) :
    val_main_v9 (F := Ideal) x0 x3 x4 x5 (ix3 b s n)
      = (Cert.Spec.rowScore (fun k => x0 (ix3 b s k)) (fun k d => x4 (ix2 d k)) (fun d n => x5 (ix2 n d))
        (fun n => val_main_v6 (F := Ideal) x3 (ix1 n))) n := by
  have h6 : idx_main_v7 (idx_main_v8 (ix3 b s n)) = ix1 n := by idx1
  rw [val_main_v9_apply, val_main_v3_apply, val_main_v1_apply, val_main_v2_apply, val_main_cst_apply, val_main_v8_apply,
    val_main_v7_apply, h6]
  unfold Cert.Spec.rowScore
  refine congrArg (· + _) (congrArg (Ideal.div · _) (Finset.sum_congr rfl fun d _ => ?_))
  have hl : lidx_main_v1 (ix3 b s n) d = ix3 b s d := by idx3
  have hr : ridx_main_v1 (ix3 b s n) d = ix2 n d := by idx2
  rw [hl, hr, query_eq]

/-- The reference's row maximum (b, s) is the maximum the row's softmax subtracts. -/
theorem rowMax_eq (x0 : (⟨S2x2048x4096, .f32⟩ : BufTy).Contents (Elt Ideal)) (x3 : (⟨S100, .f32⟩ : BufTy).Contents (Elt Ideal)) (x4 : (⟨S64x4096, .f32⟩ : BufTy).Contents (Elt Ideal)) (x5 : (⟨S100x64, .f32⟩ : BufTy).Contents (Elt Ideal)) (b : Fin 2) (s : Fin 2048) :
    val_main_v12 (F := Ideal) x0 x3 x4 x5 (ix2 b s)
      = Cert.Spec.rowMax (Cert.Spec.rowScore (fun k => x0 (ix3 b s k)) (fun k d => x4 (ix2 d k)) (fun d n => x5 (ix2 n d))
        (fun n => val_main_v6 (F := Ideal) x3 (ix1 n))) := by
  have hR : S2x2048x100.Reduces [2] S2x2048 := by decide
  have hf : (val_main_v9 (F := Ideal) x0 x3 x4 x5 ∘ hR.lift (ix2 b s))
      = (Cert.Spec.rowScore (fun k => x0 (ix3 b s k)) (fun k d => x4 (ix2 d k)) (fun d n => x5 (ix2 n d))
        (fun n => val_main_v6 (F := Ideal) x3 (ix1 n))) := by
    funext n
    have hi : hR.lift (ix2 b s) n = ix3 b s n := by idx3
    show val_main_v9 (F := Ideal) x0 x3 x4 x5 (hR.lift (ix2 b s) n) = _
    rw [hi]
    exact score_eq x0 x3 x4 x5 b s n
  rw [val_main_v12_apply, val_main_v11_apply, val_main_cst_2_apply]
  unfold val_main_v10
  rw [Host.reduce_eq_fold_single FloatOps.maximumf _ _ reducesTo_S2x2048x100_S2x2048_d2 hR h_S_ (ix2 b s),
    val_main_cst_1_apply, hf]
  rfl

/-- The reference's exponential (b, s, n): the exponential of the score less the row maximum. -/
theorem expo_eq (x0 : (⟨S2x2048x4096, .f32⟩ : BufTy).Contents (Elt Ideal)) (x3 : (⟨S100, .f32⟩ : BufTy).Contents (Elt Ideal)) (x4 : (⟨S64x4096, .f32⟩ : BufTy).Contents (Elt Ideal)) (x5 : (⟨S100x64, .f32⟩ : BufTy).Contents (Elt Ideal)) (b : Fin 2) (s : Fin 2048) (n : Fin 100) :
    val_main_v16 (F := Ideal) x0 x3 x4 x5 (ix3 b s n)
      = Ideal.exp ((Cert.Spec.rowScore (fun k => x0 (ix3 b s k)) (fun k d => x4 (ix2 d k)) (fun d n => x5 (ix2 n d))
        (fun n => val_main_v6 (F := Ideal) x3 (ix1 n))) n
          - Cert.Spec.rowMax (Cert.Spec.rowScore (fun k => x0 (ix3 b s k)) (fun k d => x4 (ix2 d k)) (fun d n => x5 (ix2 n d))
        (fun n => val_main_v6 (F := Ideal) x3 (ix1 n)))) := by
  have hi : idx_main_v13 (idx_main_v14 (ix3 b s n)) = ix2 b s := by idx2
  rw [val_main_v16_apply, val_main_v15_apply, val_main_v14_apply, val_main_v13_apply, hi, rowMax_eq, score_eq]
  rfl

/-- The reference's softmax weight (b, s, n) is the row's softmax weight of slot n. -/
theorem softmax_eq (x0 : (⟨S2x2048x4096, .f32⟩ : BufTy).Contents (Elt Ideal)) (x3 : (⟨S100, .f32⟩ : BufTy).Contents (Elt Ideal)) (x4 : (⟨S64x4096, .f32⟩ : BufTy).Contents (Elt Ideal)) (x5 : (⟨S100x64, .f32⟩ : BufTy).Contents (Elt Ideal)) (b : Fin 2) (s : Fin 2048) (n : Fin 100) :
    val_main_v20 (F := Ideal) x0 x3 x4 x5 (ix3 b s n)
      = Cert.Spec.rowSoftmax (Cert.Spec.rowScore (fun k => x0 (ix3 b s k)) (fun k d => x4 (ix2 d k)) (fun d n => x5 (ix2 n d))
        (fun n => val_main_v6 (F := Ideal) x3 (ix1 n))) n := by
  have hi : idx_main_v18 (idx_main_v19 (ix3 b s n)) = ix2 b s := by idx2
  rw [val_main_v20_apply, val_main_v19_apply, val_main_v18_apply, hi, val_main_v17_apply, val_main_cst_3_apply, expo_eq]
  simp only [Ideal.hostDivf_def, Ideal.ofBits_def, Ideal.ofBits_zero_f32, zero_add]
  unfold Cert.Spec.rowSoftmax
  refine congrArg (Ideal.div _) (Finset.sum_congr rfl fun k _ => ?_)
  have hk : idx_main_v17 (ix2 b s) k = ix3 b s k := by idx3
  rw [hk, expo_eq]

/-- The reference's output (b, s, h) is entry h of the fused output of row (b, s), with the row's gate. -/
theorem ref_out (x0 x1 : (⟨S2x2048x4096, .f32⟩ : BufTy).Contents (Elt Ideal)) (x2 : (⟨S2x32x2048x2048, .f32⟩ : BufTy).Contents (Elt Ideal))
    (x3 : (⟨S100, .f32⟩ : BufTy).Contents (Elt Ideal)) (x4 : (⟨S64x4096, .f32⟩ : BufTy).Contents (Elt Ideal))
    (x5 : (⟨S100x64, .f32⟩ : BufTy).Contents (Elt Ideal)) (x6 : (⟨S100x4096, .f32⟩ : BufTy).Contents (Elt Ideal))
    (x7 x8 : (⟨S_, .f32⟩ : BufTy).Contents (Elt Ideal)) (b : Fin 2) (s : Fin 2048) (h : Fin 4096) :
    val_main_v53 (F := Ideal) x0 x1 x2 x3 x4 x5 x6 x7 x8 (ix3 b s h)
      = Cert.Spec.rowOut (fun k => x0 (ix3 b s k)) (fun k => x1 (ix3 b s k)) (val_main_v49 (F := Ideal) x2 x7 x8 (ix2 b s))
          (fun k d => x4 (ix2 d k)) (fun d n => x5 (ix2 n d)) (fun n h => x6 (ix2 n h))
          (fun n => val_main_v6 (F := Ideal) x3 (ix1 n)) h := by
  have hg : idx_main_v50 (idx_main_v51 (ix3 b s h)) = ix2 b s := by idx2
  rw [val_main_v53_apply, val_main_v52_apply, val_main_v51_apply, val_main_v50_apply, hg, val_main_v21_apply]
  unfold Cert.Spec.rowOut
  refine congrArg (_ + ·) (congrArg (_ * ·) (Finset.sum_congr rfl fun n _ => ?_))
  have hl : lidx_main_v21 (ix3 b s h) n = ix3 b s n := by idx3
  have hr : ridx_main_v21 (ix3 b s h) n = ix2 n h := by idx2
  rw [hl, hr, softmax_eq]

end Cert.ReferenceIdeal.RefRows

end
-- ==== Proof.Bridge.lean ====
/-
  The two programs compute one function. The kernel's result array is, entry by entry, the fused output of that entry's
  row (Blocks1) of: the hidden states and the primary output as launched, the gate column the host operations make from
  the entropy region's output, the two transposed matrices, the slot values, and the log-reliabilities. The entropy
  region's output is the rows' entropies (Blocks0), which are the reference's entropies (RefRows), and the gate is the same
  host operations applied to them on both sides; a transposed matrix read at (k, d) is the matrix at (d, k); so the
  kernel's entry is the reference's entry (RefRows), the same row function of the same arguments.
-/
import proofs.«176080_j23390391894556_1_alg».proof.Proof.KernelRun
import proofs.«176080_j23390391894556_1_alg».proof.Proof.Blocks0
import proofs.«176080_j23390391894556_1_alg».proof.Proof.Blocks1
import proofs.«176080_j23390391894556_1_alg».proof.Proof.RefRows
import Idealize.ShloMosaic.Lib.ValueLayout

set_option maxRecDepth 16384

noncomputable section

namespace Cert.Bridge

open Cert.KernelIdeal Cert.KernelIdeal.Gen Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The entropies the kernel's host operations start from — the entropy region's output with its unit axis dropped — are
    the reference's entropies of the launched attention weights. -/
theorem entropy_eq (c : Dev nD) :
    (shapeCast S2x2048 (V1 m ρ c main_v0) shapeCasts_S2x2048x1_S2x2048 : S2x2048.Idx → Elt Ideal .f32)
      = Cert.ReferenceIdeal.Read.val_main_v30 (F := Ideal) (m ((c : Thread nD τ).loc main_arg2)) := by
  funext j
  obtain ⟨b, s, rfl⟩ : ∃ (b : Fin 2) (s : Fin 2048), j = ix2 b s := ⟨j 0, j 1, eq_ix2 j⟩
  refine (shapeCast_apply _ _ (ix2 b s) (ix3 b s (0 : Fin 1)) (by
    rw [Shape.rowMajor_val_three, Shape.rowMajor_val_two]
    show (b.val * 2048 + s.val) * 1 + 0 = b.val * 2048 + s.val
    omega)).trans ?_
  rw [KRun.V1_v0, Blocks0.final0, KRun.V0_arg2]
  exact (Cert.ReferenceIdeal.RefRows.ref_entropy _ b s).symm

/-- The kernel's result array is the reference's result as a function of the launched arguments. -/
theorem result_eq (c : Dev nD) :
    (dat1 (V6 m ρ) c).arrAt 7 cfg1.N
      = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Blocks1.final1, KRun.V6_arg0, KRun.V6_arg1, KRun.V6_arg6, KRun.V6_v22, KRun.V6_v23, KRun.V6_v26, KRun.V6_v21, entropy_eq]
  funext i
  obtain ⟨b, s, h, rfl⟩ : ∃ (b : Fin 2) (s : Fin 2048) (h : Fin 4096), i = ix3 b s h := ⟨i 0, i 1, i 2, eq_ix3 i⟩
  rw [Blocks1.outArr_at _ _ _ _ _ _ _ (ix3 b s h) b s h rfl rfl rfl]
  refine Eq.trans ?_ (Cert.ReferenceIdeal.RefRows.ref_out _ _ _ _ _ _ _ _ _ b s h).symm
  rw [Cert.ReferenceIdeal.RefRows.ref_gate]
  have hg : ∀ G : S2x2048.Idx → Elt Ideal .f32,
      broadcastInDim S2x2048x1 ![0, 1] bcast_S2x2048_S2x2048x1_0_1 G (ix3 b s (0 : Fin 1)) = G (ix2 b s) := fun G =>
    broadcastInDim_apply _ bcast_S2x2048_S2x2048x1_0_1 G (ix3 b s (0 : Fin 1)) (ix2 b s) (fun a => match a with
      | ⟨0, _⟩ => by show b.val = if (2 : Nat) = 1 then 0 else b.val; rw [if_neg (by decide)]
      | ⟨1, _⟩ => by show s.val = if (2048 : Nat) = 1 then 0 else s.val; rw [if_neg (by decide)])
  have ht1 : (fun (k : Fin 4096) (d : Fin 64) =>
        transpose S4096x64 [1, 0] (m ((c : Thread nD τ).loc main_arg4)) transposes_S64x4096_S4096x64_1_0 (ix2 k d))
      = fun k d => m ((c : Thread nD τ).loc main_arg4) (ix2 d k) :=
    funext fun k => funext fun d => transpose_ix2_apply _ _ k d
  have ht2 : (fun (d : Fin 64) (n : Fin 100) =>
        transpose S64x100 [1, 0] (m ((c : Thread nD τ).loc main_arg5)) transposes_S100x64_S64x100_1_0 (ix2 d n))
      = fun d n => m ((c : Thread nD τ).loc main_arg5) (ix2 n d) :=
    funext fun d => funext fun n => transpose_ix2_apply _ _ d n
  rw [hg, ht1, ht2]
  rfl

end Cert.Bridge

end
-- ==== Proof.lean ====
/-
  The proof of `Cert.Claim`: an entropy-gated fusion of a primary attention output with a cross-attention over 100 memory
  slots, as two pipelined kernels with host arithmetic between them, against its plain reference.

  THE FUNCTION. Per (batch, query position): the entropy `e = -∑ₖ aₖ · log (aₖ + ε)` of the head-averaged attention
  weights `a`; the gate `g`, the logistic of `w · e + b` vetoed to 0 where `e < 1/2` and capped at 0.8 where `e > 2`;
  the query `q = x · Wᵀ`, the scores `q · Kᵀ / 8 + log (reliability + ε)`, their softmax, the slot mixture against the
  slot values; the output `primary + g · mixture`.

  THE KERNEL computes the entropies in a first region, 64 rows per grid point (Blocks0: its output array is the rows'
  entropies), the gate on the host from that array (KernelRun: the host operations read back, stretch by stretch), and
  the fused rows in a second region, 256 rows per grid point (Blocks1: its output array is the fused output of every
  row). Each body's stored entry is a function of one row of its loaded blocks (KernelRows). THE REFERENCE computes the
  same row functions on whole arrays (RefRows). At the extended reals the two differ only by the grouping of sums, by
  `0 - x` against `-x` and by a zero a sum starts from, so the results agree entry by entry (Bridge) with no appeal to
  finiteness. The three frames are the generated ones (the reference's is its generated run with the result dropped);
  no operation was rewritten by the idealization, so `preserves` is trivial.
-/
import proofs.«176080_j23390391894556_1_alg».proof.Defs
import proofs.«176080_j23390391894556_1_alg».proof.Proof.Gen.Kernel
import proofs.«176080_j23390391894556_1_alg».proof.Proof.Gen.Kernel.Frame
import proofs.«176080_j23390391894556_1_alg».proof.Proof.Gen.KernelIdeal
import proofs.«176080_j23390391894556_1_alg».proof.Proof.Gen.KernelIdeal.Frame
import proofs.«176080_j23390391894556_1_alg».proof.Proof.Gen.ReferenceIdeal
import proofs.«176080_j23390391894556_1_alg».proof.Proof.Gen.ReferenceIdeal.Run
import proofs.«176080_j23390391894556_1_alg».proof.Proof.Gen.ReferenceIdeal.Read
import proofs.«176080_j23390391894556_1_alg».proof.Proof.Gen.Pre_finite_inputs
import proofs.«176080_j23390391894556_1_alg».proof.Proof.KernelRun
import proofs.«176080_j23390391894556_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result array: the kernel's at what its
    second region leaves, the reference's at its last stage, and these are one function of the arguments. -/
theorem algebraic : Cert.algebraic_KernelIdeal_ReferenceIdeal := by
  intro m ρ m' ρ' _ hagree
  refine ⟨fun c => (Cert.KernelIdeal.Gen.dat1 (Cert.KernelIdeal.Gen.V6 m ρ) c).arrAt 7 Cert.KernelIdeal.cfg1.N,
    Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
